-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x2048 : Shape := ⟨3, ![8, 512, 2048]⟩
abbrev S8x2048x256 : Shape := ⟨3, ![8, 2048, 256]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩

class Facts : Prop where
  bcast_S_S8x512x2048 : S_.BroadcastsInDim S8x512x2048 (![] : Fin 0 → Fin S8x512x2048.rank)
  reducesTo_S8x512x2048_S_d0_1_2 : S8x512x2048.ReducesTo [0, 1, 2] S_
  h_S_ : 0 < S_.numel
  bcast_S_S8x2048x256 : S_.BroadcastsInDim S8x2048x256 (![] : Fin 0 → Fin S8x2048x256.rank)
  reducesTo_S8x2048x256_S_d0_1_2 : S8x2048x256.ReducesTo [0, 1, 2] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S256x512 .f32) (main_arg5 : FVec F S256 .f32) (main_arg6 : FVec F S512x256 .f32) (main_arg7 : FVec F S512 .f32) (main_v13 : IVec S_ 1) (main_v16 : IVec S8x2048x256 1) : IVec S_ 1 :=
  let main_c_5 : IVec S_ 1 := constantI S_ 1 1#1
  let main_v17 : IVec S_ 1 := (fun x v => Host.reduce IntOp.andi x v reducesTo_S8x2048x256_S_d0_1_2 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_v33

def fn {F : FTy → Type} [FloatOps F] (main_arg0 : FVec F S8x512x2048 .f32) (main_arg1 : FVec F S8x2048x256 .f32) (main_arg2 : FVec F S8x2048x256 .f32) (main_arg3 : FVec F S8x2048x256 .f32) (main_arg4 : FVec F S256x512 .f32) (main_arg5 : FVec F S256 .f32) (main_arg6 : FVec F S512x256 .f32) (main_arg7 : FVec F S512 .f32) : IVec S_ 1 :=
  let main_v0 : FVec F S8x512x2048 .f32 := Host.absf main_arg0
  let main_cst : FVec F S_ .f32 := constant S_ .f32 0x7F800000#32
  let main_v1 : FVec F S8x512x2048 .f32 := broadcastInDim S8x512x2048 ![] bcast_S_S8x512x2048 main_cst
  let main_v2 : IVec S8x512x2048 1 := cmpf .olt main_v0 main_v1
  let main_c : IVec S_ 1 := constantI S_ 1 1#1
  let main_v3 : IVec S_ 1 := (fun x v => Host.reduce IntOp.andi x v reducesTo_S8x512x2048_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : IVec S_ 1 := andi main_v3 main_v7
  let main_v9 : FVec F S8x2048x256 .f32 := Host.absf main_arg2
  let main_cst_2 : FVec F S_ .f32 := constant S_ .f32 0x7F800000#32
  let main_v10 : FVec F S8x2048x256 .f32 := broadcastInDim S8x2048x256 ![] bcast_S_S8x2048x256 main_cst_2
  let main_v11 : IVec S8x2048x256 1 := cmpf .olt main_v9 main_v10
  let main_c_3 : IVec S_ 1 := constantI S_ 1 1#1
  let main_v12 : IVec S_ 1 := (fun x v => Host.reduce IntOp.andi x v reducesTo_S8x2048x256_S_d0_1_2 h_S_) main_v11 main_c_3
  let main_v13 : IVec S_ 1 := andi main_v8 main_v12
  let main_v14 : FVec F S8x2048x256 .f32 := Host.absf main_arg3
  let main_cst_4 : FVec F S_ .f32 := constant S_ .f32 0x7F800000#32
  let main_v15 : FVec F S8x2048x256 .f32 := broadcastInDim S8x2048x256 ![] bcast_S_S8x2048x256 main_cst_4
  let main_v16 : IVec S8x2048x256 1 := cmpf .olt main_v14 main_v15
  fn_part1 (F := F) main_arg4 main_arg5 main_arg6 main_arg7 main_v13 main_v16
-- ==== Kernel.lean ====
abbrev S8x512x2048 : Shape := ⟨3, ![8, 512, 2048]⟩
abbrev S8x2048x256 : Shape := ⟨3, ![8, 2048, 256]⟩
abbrev S256x512 : Shape := ⟨2, ![256, 512]⟩
abbrev S256 : Shape := ⟨1, ![256]⟩
abbrev S512x256 : Shape := ⟨2, ![512, 256]⟩
abbrev S512 : Shape := ⟨1, ![512]⟩
abbrev S1x256 : Shape := ⟨2, ![1, 256]⟩
abbrev S512x1 : Shape := ⟨2, ![512, 1]⟩
abbrev S8x2048x2048 : Shape := ⟨3, ![8, 2048, 2048]⟩
abbrev S1x512x256 : Shape := ⟨3, ![1, 512, 256]⟩
abbrev S1x256x256 : Shape := ⟨3, ![1, 256, 256]⟩
abbrev S1x2048x256 : Shape := ⟨3, ![1, 2048, 256]⟩
abbrev S1x256x2048 : Shape := ⟨3, ![1, 256, 2048]⟩
abbrev S256x256 : Shape := ⟨2, ![256, 256]⟩
abbrev S2048x256 : Shape := ⟨2, ![2048, 256]⟩
abbrev S256x2048 : Shape := ⟨2, ![256, 2048]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S8x512x2048, .f32⟩
  | .hbm, ⟨1, _⟩ => ⟨S8x2048x256, .f32⟩
  | .hbm, ⟨2, _⟩ => ⟨S8x2048x256, .f32⟩
  | .hbm, ⟨3, _⟩ => ⟨S8x2048x256, .f32⟩
  | .hbm, ⟨4, _⟩ => ⟨S256x512, .f32⟩
  | .hbm, ⟨5, _⟩ => ⟨S256, .f32⟩
  | .hbm, ⟨6, _⟩ => ⟨S512x256, .f32⟩
  | .hbm, ⟨7, _⟩ => ⟨S512, .f32⟩
  | .hbm, ⟨8, _⟩ => ⟨S1x256, .f32⟩
  | .hbm, ⟨9, _⟩ => ⟨S512x1, .f32⟩
  | .hbm, ⟨10, _⟩ => ⟨S8x2048x2048, .f32⟩
  | .hbm, ⟨11, _⟩ => ⟨S8x512x2048, .f32⟩
  | .local _ .vmem, ⟨0, _⟩ => ⟨S1x512x256, .f32⟩
  | .local _ .vmem, ⟨1, _⟩ => ⟨S1x512x256, .f32⟩
  | .local _ .vmem, ⟨2, _⟩ => ⟨S1x256x256, .f32⟩
  | .local _ .vmem, ⟨3, _⟩ => ⟨S1x256x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x2048x256, .f32⟩
  | .local _ .vmem, ⟨8, _⟩ => ⟨S256x512, .f32⟩
  | .local _ .vmem, ⟨9, _⟩ => ⟨S1x256, .f32⟩
  | .local _ .vmem, ⟨10, _⟩ => ⟨S512x256, .f32⟩
  | .local _ .vmem, ⟨11, _⟩ => ⟨S512x1, .f32⟩
  | .local _ .vmem, ⟨12, _⟩ => ⟨S1x256x2048, .f32⟩
  | .local _ .vmem, ⟨13, _⟩ => ⟨S1x256x2048, .f32⟩
  | .local _ .vmem, ⟨14, _⟩ => ⟨S1x512x256, .f32⟩
  | .local _ .vmem, ⟨15, _⟩ => ⟨S1x512x256, .f32⟩
  | _, _ => ⟨S8x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S256_S1x256 : S256.ShapeCasts S1x256
  shapeCasts_S512_S512x1 : S512.ShapeCasts S512x1
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  inb_S512x256_S512x256_0_0 : ∀ a, (![0, 0] : Fin 2 → Nat) a + S512x256.size a ≤ S512x256.size a
  h_S512x256 : 0 < S512x256.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  shapeCasts_S512x256_S1x512x256 : S512x256.ShapeCasts S1x512x256
  dot_S512x256_S256x512_S256x256_0_1_1_0_n_n_wf : DotDims.WF S512x256 S256x512 S256x256 [0] [1] [1] [0] [] []
  dot_S256x256_S2048x256_S256x2048_1_1_0_0_n_n_wf : DotDims.WF S256x256 S2048x256 S256x2048 [1] [1] [0] [0] [] []
  dot_S256x2048_S2048x256_S256x256_1_0_0_1_n_n_wf : DotDims.WF S256x2048 S2048x256 S256x256 [1] [0] [0] [1] [] []
  dot_S512x256_S256x256_S512x256_1_1_0_0_n_n_wf : DotDims.WF S512x256 S256x256 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S8x512x2048.size a
  hwx0_0 : ∀ i : grid0.Coords, EltTy.bits .f32 = 32 ∨ (Rect.block (s := S8x512x2048) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S8x2048x256.size a
  hwx0_1 : ∀ i : grid0.Coords, EltTy.bits .f32 = 32 ∨ (Rect.block (s := S8x2048x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x256.size a
  hwx0_2 : ∀ i : grid0.Coords, EltTy.bits .f32 = 32 ∨ (Rect.block (s := S8x2048x256) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x256.size a ≤ S8x2048x256.size a
  hwx0_3 : ∀ i : grid0.Coords, EltTy.bits .f32 = 32 ∨ (Rect.block (s := S8x2048x256) S1x2048x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .f32 = 32 ∨ (Rect.block (s := S256x512) S256x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .f32 = 32 ∨ (Rect.block (s := S512x256) S512x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S512x1.size a
  hwx0_7 : ∀ i : grid0.Coords, EltTy.bits .f32 = 32 ∨ (Rect.block (s := S512x1) S512x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x2048.size a ≤ S8x2048x2048.size a
  hwx0_8 : ∀ i : grid0.Coords, EltTy.bits .f32 = 32 ∨ (Rect.block (s := S8x2048x2048) S1x256x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512x256.size a ≤ S8x512x2048.size a
  hwx0_9 : ∀ i : grid0.Coords, EltTy.bits .f32 = 32 ∨ (Rect.block (s := S8x512x2048) S1x512x256.size (cc0_transform_9 i) (hinb0_9 i)).WholeWords (EltTy.packing .f32)

variable [Facts₀]

def dot_S512x256_S256x512_S256x256_0_1_1_0_n_n : DotDims S512x256 S256x512 S256x256 where
  lhsContracting := [0]
  rhsContracting := [1]
  lhsNonContracting := [1]
  rhsNonContracting := [0]
  lhsBatch := []
  rhsBatch := []
  wf := dot_S512x256_S256x512_S256x256_0_1_1_0_n_n_wf
def dot_S256x256_S2048x256_S256x2048_1_1_0_0_n_n : DotDims S256x256 S2048x256 S256x2048 where
  lhsContracting := [1]
  rhsContracting := [1]
  lhsNonContracting := [0]
  rhsNonContracting := [0]
  lhsBatch := []
  rhsBatch := []
  wf := dot_S256x256_S2048x256_S256x2048_1_1_0_0_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf
def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x2048x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S512x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2_0) S1x256x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_1) S1x512x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x512x2048 : Shape := ⟨3, ![8, 512, 2048]⟩
abbrev S8x2048x256 : Shape := ⟨3, ![8, 2048, 256]⟩
abbrev S256x512 : Shape := ⟨2, ![256, 512]⟩
abbrev S256 : Shape := ⟨1, ![256]⟩
abbrev S512x256 : Shape := ⟨2, ![512, 256]⟩
abbrev S512 : Shape := ⟨1, ![512]⟩
abbrev S8x2048x512 : Shape := ⟨3, ![8, 2048, 512]⟩
abbrev S1x1x256 : Shape := ⟨3, ![1, 1, 256]⟩
abbrev S_ : Shape := ⟨0, ![]⟩
abbrev S8x2048x2048 : Shape := ⟨3, ![8, 2048, 2048]⟩
abbrev S8x2048 : Shape := ⟨2, ![8, 2048]⟩
abbrev S8x2048x1 : Shape := ⟨3, ![8, 2048, 1]⟩
abbrev S1x1x512 : Shape := ⟨3, ![1, 1, 512]⟩

abbrev nBuf : Space → Nat
  | .hbm => 42
  | .vmem => 0
  | .smem => 0
  | _ => 0

abbrev bufTy : (tb : Table) → Fin (tcTables nBuf tb) → BufTy
  | .hbm, ⟨0, _⟩ => ⟨S8x512x2048, .f32⟩
  | .hbm, ⟨1, _⟩ => ⟨S8x2048x256, .f32⟩
  | .hbm, ⟨2, _⟩ => ⟨S8x2048x256, .f32⟩
  | .hbm, ⟨3, _⟩ => ⟨S8x2048x256, .f32⟩
  | .hbm, ⟨4, _⟩ => ⟨S256x512, .f32⟩
  | .hbm, ⟨5, _⟩ => ⟨S256, .f32⟩
  | .hbm, ⟨6, _⟩ => ⟨S512x256, .f32⟩
  | .hbm, ⟨7, _⟩ => ⟨S512, .f32⟩
  | .hbm, ⟨8, _⟩ => ⟨S8x2048x512, .f32⟩
  | .hbm, ⟨9, _⟩ => ⟨S8x2048x256, .f32⟩
  | .hbm, ⟨10, _⟩ => ⟨S1x1x256, .f32⟩
  | .hbm, ⟨11, _⟩ => ⟨S8x2048x256, .f32⟩
  | .hbm, ⟨12, _⟩ => ⟨S8x2048x256, .f32⟩
  | .hbm, ⟨13, _⟩ => ⟨S8x2048x256, .f32⟩
  | .hbm, ⟨14, _⟩ => ⟨S_, .f32⟩
  | .hbm, ⟨15, _⟩ => ⟨S8x2048x256, .f32⟩
  | .hbm, ⟨16, _⟩ => ⟨S8x2048x256, .f32⟩
  | .hbm, ⟨17, _⟩ => ⟨S8x2048x2048, .f32⟩
  | .hbm, ⟨18, _⟩ => ⟨S_, .f32⟩
  | .hbm, ⟨19, _⟩ => ⟨S8x2048, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x256, .f32⟩
  | .hbm, ⟨33, _⟩ => ⟨S8x2048x512, .f32⟩
  | .hbm, ⟨34, _⟩ => ⟨S1x1x512, .f32⟩
  | .hbm, ⟨35, _⟩ => ⟨S8x2048x512, .f32⟩
  | .hbm, ⟨36, _⟩ => ⟨S8x2048x512, .f32⟩
  | .hbm, ⟨37, _⟩ => ⟨S8x2048x512, .f32⟩
  | .hbm, ⟨38, _⟩ => ⟨S_, .f32⟩
  | .hbm, ⟨39, _⟩ => ⟨S8x2048x512, .f32⟩
  | .hbm, ⟨40, _⟩ => ⟨S8x2048x512, .f32⟩
  | .hbm, ⟨41, _⟩ => ⟨S8x512x2048, .f32⟩
  | _, _ => ⟨S8x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  transposes_S8x512x2048_S8x2048x512_0_2_1 : S8x512x2048.Transposes [0, 2, 1] S8x2048x512
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x256 : S_.BroadcastsInDim S8x2048x256 (![] : Fin 0 → Fin S8x2048x256.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  bcast_S_S8x2048x512 : S_.BroadcastsInDim S8x2048x512 (![] : Fin 0 → Fin S8x2048x512.rank)
  transposes_S8x2048x512_S8x512x2048_0_2_1 : S8x2048x512.Transposes [0, 2, 1] S8x512x2048
  dot_S8x2048x512_S256x512_S8x2048x256_2_1_01_0_n_n_wf : DotDims.WF S8x2048x512 S256x512 S8x2048x256 [2] [1] [0, 1] [0] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]
  dot_S8x2048x256_S512x256_S8x2048x512_2_1_01_0_n_n_wf : DotDims.WF S8x2048x256 S512x256 S8x2048x512 [2] [1] [0, 1] [0] [] []

variable [Facts₀]

def dot_S8x2048x512_S256x512_S8x2048x256_2_1_01_0_n_n : DotDims S8x2048x512 S256x512 S8x2048x256 where
  lhsContracting := [2]
  rhsContracting := [1]
  lhsNonContracting := [0, 1]
  rhsNonContracting := [0]
  lhsBatch := []
  rhsBatch := []
  wf := dot_S8x2048x512_S256x512_S8x2048x256_2_1_01_0_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf
def dot_S8x2048x256_S512x256_S8x2048x512_2_1_01_0_n_n : DotDims S8x2048x256 S512x256 S8x2048x512 where
  lhsContracting := [2]
  rhsContracting := [1]
  lhsNonContracting := [0, 1]
  rhsNonContracting := [0]
  lhsBatch := []
  rhsBatch := []
  wf := dot_S8x2048x256_S512x256_S8x2048x512_2_1_01_0_n_n_wf

class Facts : Prop extends Facts₀ where

variable [Facts]
-- ==== Proof.Spec.lean ====
/-
  Attention over an encoder, one output row at a time.

  For a batch element b and a decoder position t the computation reads the column dc[b, ·, t] of the decoder
  features, the row emb[b, t, ·] of the embedding, the encoder arrays enc[b] and enx[b], and the two linear maps.
  * the query  q(e) = ((Σ_h dc(h) · W₁(e, h)) + b₁(e) + emb(e)) · c,
  * the energy en(s) = Σ_e q(e) · enc(s, e),
  * the weights a(s) = exp (en(s) − M) / Σ_s' exp (en(s') − M), where M is the largest energy of the row (the maximum
    started from minus infinity),
  * the context ctx(e) = Σ_s a(s) · enx(s, e),
  * the output at hidden unit h: ((Σ_e W₂(h, e) · ctx(e)) + b₂(h) + dc(h)) · c.
  The constant c is the single-precision number both programs write for √0.7; it is kept as its bit pattern and never
  evaluated. Every function below is stated on the extended reals; sums and products are the exact ones, so the order of a
  sum and the order of the two factors of a product do not matter.
-/
import Idealize.ShloMosaic.PureOps.Ideal
import Idealize.ShloMosaic.Lib.ValueIdx

noncomputable section

open scoped BigOperators

namespace Cert.Attn

open Idealize.ShloMosaic Idealize.ShloMosaic.ValueIdx

/-- The common scale, by its bit pattern. -/
def scale : EReal := Ideal.ofBits .f32 0x3F562F5A#32

/-- The value a row maximum starts from: the pattern of minus infinity. -/
def floorVal : EReal := Ideal.ofBits .f32 0xFF800000#32

/-- The query of one row at embedding coordinate `e`. -/
def query (dcol : Fin 512 → EReal) (W1 : Fin 256 → Fin 512 → EReal) (b1 erow : Fin 256 → EReal) (e : Fin 256) : EReal :=
  ((∑ h : Fin 512, dcol h * W1 e h) + b1 e + erow e) * scale

/-- The energy of one row against encoder position `s`. -/
def energy (q : Fin 256 → EReal) (enc : Fin 2048 → Fin 256 → EReal) (s : Fin 2048) : EReal :=
  ∑ e : Fin 256, q e * enc s e

/-- The largest energy of a row, started from minus infinity. -/
def rowMax (en : Fin 2048 → EReal) : EReal := (Finset.univ : Finset (Fin 2048)).fold max floorVal en

/-- The shifted exponential of a row at `s`. -/
def expo (en : Fin 2048 → EReal) (s : Fin 2048) : EReal := Ideal.exp (en s - rowMax en)

/-- The attention weight of a row at `s`: the shifted exponential over the row's sum of them. -/
def weight (en : Fin 2048 → EReal) (s : Fin 2048) : EReal := Ideal.div (expo en s) (∑ s' : Fin 2048, expo en s')

/-- The context of one row at embedding coordinate `e`. -/
def context (a : Fin 2048 → EReal) (enx : Fin 2048 → Fin 256 → EReal) (e : Fin 256) : EReal :=
  ∑ s : Fin 2048, a s * enx s e

/-- The output of one row at one hidden unit, from that unit's row of W₂, its bias and its decoder feature. -/
def hidden (ctx w2 : Fin 256 → EReal) (b2 d : EReal) : EReal := ((∑ e : Fin 256, w2 e * ctx e) + b2 + d) * scale

/-! ## The two results as functions of the eight argument arrays -/

variable (x0 : (⟨3, ![8, 512, 2048]⟩ : Shape).Idx → EReal) (x1 x2 x3 : (⟨3, ![8, 2048, 256]⟩ : Shape).Idx → EReal)
  (x4 : (⟨2, ![256, 512]⟩ : Shape).Idx → EReal) (x5 : (⟨1, ![256]⟩ : Shape).Idx → EReal)
  (x6 : (⟨2, ![512, 256]⟩ : Shape).Idx → EReal) (x7 : (⟨1, ![512]⟩ : Shape).Idx → EReal)

/-- The attention weights of row (b, t). -/
def attnRow (b : Fin 8) (t : Fin 2048) : Fin 2048 → EReal :=
  weight (energy (query (fun h => x0 (ix3 b h t)) (fun e h => x4 (ix2 e h)) (fun e => x5 (ix1 e)) (fun e => x1 (ix3 b t e)))
    (fun s e => x2 (ix3 b s e)))

/-- The first result: the attention weights, [8, 2048, 2048]. -/
def attn : (⟨3, ![8, 2048, 2048]⟩ : Shape).Idx → EReal := fun i => attnRow x0 x1 x2 x4 x5 (i 0) (i 1) (i 2)

/-- The second result, [8, 512, 2048]: at (b, h, t) the output of row (b, t) at hidden unit h. -/
def conved : (⟨3, ![8, 512, 2048]⟩ : Shape).Idx → EReal := fun i =>
  hidden (context (attnRow x0 x1 x2 x4 x5 (i 0) (i 2)) (fun s e => x3 (ix3 (i 0) s e))) (fun e => x6 (ix2 (i 1) e))
    (x7 (ix1 (i 1))) (x0 (ix3 (i 0) (i 1) (i 2)))

end Cert.Attn

end
-- ==== Proof.RefValue.lean ====
/-
  The reference, read at an index: its two results are the attention weights and the output of the
  specification, row by row.
-/
import proofs.«141906_j8521215115924_1_alg».proof.Proof.Gen.ReferenceIdeal.Read
import proofs.«141906_j8521215115924_1_alg».proof.Proof.Spec
import Idealize.ShloMosaic.PureOps.Ideal.Laws
import Idealize.ShloMosaic.PureOps.Reduce
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S8x512x2048, .f32⟩ : BufTy).Contents (Elt Ideal))
  (x1 x2 x3 : (⟨S8x2048x256, .f32⟩ : BufTy).Contents (Elt Ideal))
  (x4 : (⟨S256x512, .f32⟩ : BufTy).Contents (Elt Ideal)) (x5 : (⟨S256, .f32⟩ : BufTy).Contents (Elt Ideal))
  (x6 : (⟨S512x256, .f32⟩ : BufTy).Contents (Elt Ideal)) (x7 : (⟨S512, .f32⟩ : BufTy).Contents (Elt Ideal))

/-- The query row of (b, t), as the specification's arguments. -/
abbrev qrow (b : Fin 8) (t : Fin 2048) : Fin 256 → EReal :=
  Cert.Attn.query (fun h => x0 (ix3 b h t)) (fun e h => x4 (ix2 e h)) (fun e => x5 (ix1 e)) (fun e => x1 (ix3 b t e))

/-- The scaled query: the transposed features against the first weight, plus bias and embedding, times the constant. -/
theorem v7_at (b : Fin 8) (t : Fin 2048) (e : Fin 256) :
    val_main_v7 (F := Ideal) x0 x1 x4 x5 (ix3 b t e) = qrow x0 x1 x4 x5 b t e := by
  rw [val_main_v7_apply, val_main_v5_apply, val_main_v4_apply, val_main_v1_apply, val_main_v3_apply, val_main_v2_apply,
    val_main_v6_apply, val_main_cst_apply]
  unfold qrow Cert.Attn.query Cert.Attn.scale
  simp only [Ideal.addf_def, Ideal.mulf_def, Ideal.ofBits_def]
  congr 1
  congr 1
  congr 1
  · refine Finset.sum_congr rfl fun h _ => ?_
    rw [val_main_v0_apply]
    congr 1
    · exact congrArg x0 (funext fun a => Fin.ext (by match a with | ⟨0, _⟩ => rfl | ⟨1, _⟩ => rfl | ⟨2, _⟩ => rfl))
    · exact congrArg x4 (funext fun a => Fin.ext (by match a with | ⟨0, _⟩ => rfl | ⟨1, _⟩ => rfl))
  · exact congrArg x5 (funext fun a => Fin.ext (by match a with | ⟨0, _⟩ => rfl))

/-- The energy row of (b, t). -/
abbrev erow (b : Fin 8) (t : Fin 2048) : Fin 2048 → EReal :=
  Cert.Attn.energy (qrow x0 x1 x4 x5 b t) (fun s e => x2 (ix3 b s e))

/-- The energy: the query row against the encoder row s. -/
theorem v8_at (b : Fin 8) (t : Fin 2048) (s : Fin 2048) :
    val_main_v8 (F := Ideal) x0 x1 x2 x4 x5 (ix3 b t s) = erow x0 x1 x2 x4 x5 b t s := by
  rw [val_main_v8_apply]
  unfold erow Cert.Attn.energy
  refine Finset.sum_congr rfl fun e _ => ?_
  congr 1
  · rw [show lidx_main_v8 (ix3 b t s) e = ix3 b t e from
      funext fun a => Fin.ext (by match a with | ⟨0, _⟩ => rfl | ⟨1, _⟩ => rfl | ⟨2, _⟩ => rfl)]
    exact v7_at x0 x1 x4 x5 b t e
  · exact congrArg x2 (funext fun a => Fin.ext (by match a with | ⟨0, _⟩ => rfl | ⟨1, _⟩ => rfl | ⟨2, _⟩ => rfl))

/-- The row maximum: the fold of the maximum over the last axis, started from the pattern of minus infinity. -/
theorem v9_at (b : Fin 8) (t : Fin 2048) :
    val_main_v9 (F := Ideal) x0 x1 x2 x4 x5 (ix2 b t) = Cert.Attn.rowMax (erow x0 x1 x2 x4 x5 b t) := by
  unfold val_main_v9
  rw [Host.reduce_eq_fold_single FloatOps.maximumf _ _ reducesTo_S8x2048x2048_S8x2048_d2
    (by decide : S8x2048x2048.Reduces [2] S8x2048) h_S_ (ix2 b t)]
  unfold Cert.Attn.rowMax Cert.Attn.floorVal
  show (Finset.univ : Finset (Fin 2048)).fold max (Ideal.ofBits .f32 0xFF800000#32) _
    = (Finset.univ : Finset (Fin 2048)).fold max (Ideal.ofBits .f32 0xFF800000#32) (erow x0 x1 x2 x4 x5 b t)
  congr 1
  funext k
  show val_main_v8 (F := Ideal) x0 x1 x2 x4 x5 _ = _
  rw [show (by decide : S8x2048x2048.Reduces [2] S8x2048).lift (ix2 b t) k = ix3 b t k from
    funext fun a => Fin.ext (by match a with | ⟨0, _⟩ => rfl | ⟨1, _⟩ => rfl | ⟨2, _⟩ => rfl)]
  exact v8_at x0 x1 x2 x4 x5 b t k

/-- The maximum of the starting value and the row maximum is the row maximum: a fold of the maximum started from a
    value is at least that value. -/
theorem v11_at (b : Fin 8) (t : Fin 2048) :
    val_main_v11 (F := Ideal) x0 x1 x2 x4 x5 (ix2 b t) = Cert.Attn.rowMax (erow x0 x1 x2 x4 x5 b t) := by
  rw [val_main_v11_apply, val_main_v10_apply, val_main_cst_1_apply, v9_at]
  simp only [Ideal.maximumf_def, Ideal.ofBits_def]
  exact max_eq_right ((Finset.le_fold_max _).2 (Or.inl le_rfl))

/-- The shifted exponential. -/
theorem v15_at (b : Fin 8) (t : Fin 2048) (s : Fin 2048) :
    val_main_v15 (F := Ideal) x0 x1 x2 x4 x5 (ix3 b t s) = Cert.Attn.expo (erow x0 x1 x2 x4 x5 b t) s := by
  rw [val_main_v15_apply, val_main_v14_apply, val_main_v13_apply, val_main_v12_apply, v8_at,
    show idx_main_v12 (idx_main_v13 (ix3 b t s)) = ix2 b t from
      funext fun a => Fin.ext (by match a with | ⟨0, _⟩ => rfl | ⟨1, _⟩ => rfl),
    v11_at]
  rfl

/-- The row's sum of shifted exponentials: the sum started from the zero pattern. -/
theorem v16_at (b : Fin 8) (t : Fin 2048) :
    val_main_v16 (F := Ideal) x0 x1 x2 x4 x5 (ix2 b t) = ∑ s : Fin 2048, Cert.Attn.expo (erow x0 x1 x2 x4 x5 b t) s := by
  rw [val_main_v16_apply, val_main_cst_2_apply, Ideal.ofBits_def, Ideal.ofBits_zero_f32, zero_add]
  refine Finset.sum_congr rfl fun s _ => ?_
  rw [show idx_main_v16 (ix2 b t) s = ix3 b t s from
    funext fun a => Fin.ext (by match a with | ⟨0, _⟩ => rfl | ⟨1, _⟩ => rfl | ⟨2, _⟩ => rfl)]
  exact v15_at x0 x1 x2 x4 x5 b t s

/-- The attention weight. -/
theorem v19_at (b : Fin 8) (t : Fin 2048) (s : Fin 2048) :
    val_main_v19 (F := Ideal) x0 x1 x2 x4 x5 (ix3 b t s) = Cert.Attn.attnRow x0 x1 x2 x4 x5 b t s := by
  rw [val_main_v19_apply, val_main_v18_apply, val_main_v17_apply, v15_at,
    show idx_main_v17 (idx_main_v18 (ix3 b t s)) = ix2 b t from
      funext fun a => Fin.ext (by match a with | ⟨0, _⟩ => rfl | ⟨1, _⟩ => rfl),
    v16_at]
  rfl

/-- The first result is the specification's attention weights. -/
theorem attn_eq : val_main_v19 (F := Ideal) x0 x1 x2 x4 x5 = Cert.Attn.attn x0 x1 x2 x4 x5 := by
  funext i
  obtain ⟨b, t, s, rfl⟩ : ∃ (b : Fin 8) (t : Fin 2048) (s : Fin 2048), i = ix3 b t s := ⟨i 0, i 1, i 2, eq_ix3 i⟩
  rw [v19_at]
  rfl

/-- The context row of (b, t). -/
abbrev crow (b : Fin 8) (t : Fin 2048) : Fin 256 → EReal :=
  Cert.Attn.context (Cert.Attn.attnRow x0 x1 x2 x4 x5 b t) (fun s e => x3 (ix3 b s e))

/-- The context: the weights of the row against the second encoder array. -/
theorem v20_at (b : Fin 8) (t : Fin 2048) (e : Fin 256) :
    val_main_v20 (F := Ideal) x0 x1 x2 x3 x4 x5 (ix3 b t e) = crow x0 x1 x2 x3 x4 x5 b t e := by
  rw [val_main_v20_apply]
  unfold crow Cert.Attn.context
  refine Finset.sum_congr rfl fun s _ => ?_
  congr 1
  · rw [show lidx_main_v20 (ix3 b t e) s = ix3 b t s from
      funext fun a => Fin.ext (by match a with | ⟨0, _⟩ => rfl | ⟨1, _⟩ => rfl | ⟨2, _⟩ => rfl)]
    exact v19_at x0 x1 x2 x4 x5 b t s
  · exact congrArg x3 (funext fun a => Fin.ext (by match a with | ⟨0, _⟩ => rfl | ⟨1, _⟩ => rfl | ⟨2, _⟩ => rfl))

/-- The output before the transposition: the context against the second weight (the two factors of each product in the
    other order), plus bias and the decoder feature, times the constant. -/
theorem v27_at (b : Fin 8) (t : Fin 2048) (h : Fin 512) :
    val_main_v27 (F := Ideal) x0 x1 x2 x3 x4 x5 x6 x7 (ix3 b t h)
      = Cert.Attn.hidden (crow x0 x1 x2 x3 x4 x5 b t) (fun e => x6 (ix2 h e)) (x7 (ix1 h)) (x0 (ix3 b h t)) := by
  rw [val_main_v27_apply, val_main_v25_apply, val_main_v24_apply, val_main_v21_apply, val_main_v23_apply, val_main_v22_apply,
    val_main_v26_apply, val_main_cst_3_apply, val_main_v0_apply]
  unfold Cert.Attn.hidden Cert.Attn.scale
  simp only [Ideal.addf_def, Ideal.mulf_def, Ideal.ofBits_def]
  congr 1
  congr 1
  · congr 1
    · refine Finset.sum_congr rfl fun e _ => ?_
      rw [mul_comm]
      congr 1
      · exact congrArg x6 (funext fun a => Fin.ext (by match a with | ⟨0, _⟩ => rfl | ⟨1, _⟩ => rfl))
      · rw [show lidx_main_v21 (ix3 b t h) e = ix3 b t e from
          funext fun a => Fin.ext (by match a with | ⟨0, _⟩ => rfl | ⟨1, _⟩ => rfl | ⟨2, _⟩ => rfl)]
        exact v20_at x0 x1 x2 x3 x4 x5 b t e
    · exact congrArg x7 (funext fun a => Fin.ext (by match a with | ⟨0, _⟩ => rfl))
  · exact congrArg x0 (funext fun a => Fin.ext (by match a with | ⟨0, _⟩ => rfl | ⟨1, _⟩ => rfl | ⟨2, _⟩ => rfl))

/-- The second result is the specification's output. -/
theorem conved_eq :
    val_main_v28 (F := Ideal) x0 x1 x2 x3 x4 x5 x6 x7 = Cert.Attn.conved x0 x1 x2 x3 x4 x5 x6 x7 := by
  funext i
  obtain ⟨b, h, t, rfl⟩ : ∃ (b : Fin 8) (h : Fin 512) (t : Fin 2048), i = ix3 b h t := ⟨i 0, i 1, i 2, eq_ix3 i⟩
  rw [val_main_v28_apply,
    show idx_main_v28 (ix3 b h t) = ix3 b t h from
      funext fun a => Fin.ext (by match a with | ⟨0, _⟩ => rfl | ⟨1, _⟩ => rfl | ⟨2, _⟩ => rfl),
    v27_at]
  rfl

end Cert.ReferenceIdeal.RefValue

end
-- ==== Proof.LibRowDot.lean ====
/-
  A product of one matrix with the transpose of another, read at one entry.

  The matrix unit's contraction in which BOTH operands contract their last axis (left contracting axis 1, right
  contracting axis 1, no batch axis: `x @ w.T` with `w` kept in its (columns-of-the-result, contraction) layout),
  accumulated into the zero splat, is at the ideal values the sum over the contraction coordinate k of
  l (i, k) · r (j, k): entry (i, j) is the dot product of row i of the left operand with row j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.RowDot

open Idealize.ShloMosaic Idealize.ShloMosaic.ValueIdx

/-- Entry (i, j) of an M×K by N×K `tpu.matmul` contracting both last axes into the zero accumulator, at the ideal
    values: the dot product of the left operand's row i with the right operand's row j. -/
theorem matmul_zero_apply {M K N : Nat} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![M, K]⟩ φ₁) (r : FVec Ideal ⟨2, ![N, K]⟩ φ₂)
    (i : Fin M) (j : Fin N) :
    matmul D prec l r (constant ⟨2, ![M, N]⟩ .f32 0x00000000#32) (ix2 i j)
      = ∑ k : Fin K, l (ix2 i k) * r (ix2 j k) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : DotDims.lhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [1], [0], [0], [], [], wf⟩ : DotDims ⟨2, ![M, K]⟩ ⟨2, ![N, K]⟩ ⟨2, ![M, N]⟩) (ix2 i j)
      ((contrEquiv1 (⟨[1], [1], [0], [0], [], [], wf⟩ : DotDims ⟨2, ![M, K]⟩ ⟨2, ![N, K]⟩ ⟨2, ![M, N]⟩) K rfl rfl).symm k) = ix2 j k :=
    funext fun a => Fin.ext (by
      match a with
      | ⟨0, _⟩ =>
        unfold DotDims.rhsIdx
        rw [dif_neg (by exact List.not_mem_nil), dif_pos (by exact List.mem_singleton.mpr rfl)]
        rfl
      | ⟨1, _⟩ => exact (DotDims.rhsIdx_val_of_single _ rfl _ _).trans hk)
  rw [el, er]

end Idealize.ShloMosaic.RowDot

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibColDot.lean ====
/-
  A product of the transpose of one matrix with the transpose of another, read at one entry.

  The matrix unit's contraction in which the left operand contracts its FIRST axis and the right operand its LAST
  (left contracting axis 0, right contracting axis 1, no batch axis: `x.T @ w.T` with both operands kept as they lie),
  accumulated into the zero splat, is at the ideal values the sum over the contraction coordinate k of
  l (k, i) · r (j, k): entry (i, j) is the dot product of column i of the left operand with row j of the right one.
  The statement is over any dimension record whose six lists are those, whatever name a printed record carries.
-/
import Idealize.ShloMosaic.Lib.ValueIdx
import Idealize.ShloMosaic.PureOps.Ideal.Laws

noncomputable section

open scoped BigOperators

namespace Idealize.ShloMosaic.ColDot

open Idealize.ShloMosaic Idealize.ShloMosaic.ValueIdx

/-- Entry (i, j) of a K×M by N×K `tpu.matmul` contracting the left operand's first axis with the right operand's last
    into the zero accumulator, at the ideal values: the dot product of the left operand's column i with the right
    operand's row j. -/
theorem matmul_zero_apply {M K N : Nat} {φ₁ φ₂ : FTy}
    (D : DotDims ⟨2, ![K, M]⟩ ⟨2, ![N, K]⟩ ⟨2, ![M, N]⟩)
    (hlc : D.lhsContracting = [0]) (hrc : D.rhsContracting = [1]) (hln : D.lhsNonContracting = [1])
    (hrn : D.rhsNonContracting = [0]) (hlb : D.lhsBatch = []) (hrb : D.rhsBatch = [])
    (prec : Option ContractPrecision) (l : FVec Ideal ⟨2, ![K, M]⟩ φ₁) (r : FVec Ideal ⟨2, ![N, K]⟩ φ₂)
    (i : Fin M) (j : Fin N) :
    matmul D prec l r (constant ⟨2, ![M, N]⟩ .f32 0x00000000#32) (ix2 i j)
      = ∑ k : Fin K, l (ix2 k i) * r (ix2 j k) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[0], [1], [1], [0], [], [], wf⟩ : DotDims ⟨2, ![K, M]⟩ ⟨2, ![N, K]⟩ ⟨2, ![M, N]⟩) K rfl rfl).symm]
  refine Finset.sum_congr rfl fun k _ => ?_
  have hk := contrEquiv1_symm_val (⟨[0], [1], [1], [0], [], [], wf⟩ : DotDims ⟨2, ![K, M]⟩ ⟨2, ![N, K]⟩ ⟨2, ![M, N]⟩) K rfl rfl k
  have el : DotDims.lhsIdx (⟨[0], [1], [1], [0], [], [], wf⟩ : DotDims ⟨2, ![K, M]⟩ ⟨2, ![N, K]⟩ ⟨2, ![M, N]⟩) (ix2 i j)
      ((contrEquiv1 (⟨[0], [1], [1], [0], [], [], wf⟩ : DotDims ⟨2, ![K, M]⟩ ⟨2, ![N, K]⟩ ⟨2, ![M, N]⟩) K rfl rfl).symm k) = ix2 k i :=
    funext fun a => Fin.ext (by
      match a with
      | ⟨0, _⟩ => exact (DotDims.lhsIdx_val_of_single _ rfl _ _).trans hk
      | ⟨1, _⟩ =>
        unfold DotDims.lhsIdx
        rw [dif_neg (by exact List.not_mem_nil), dif_pos (by exact List.mem_singleton.mpr rfl)]
        rfl)
  have er : DotDims.rhsIdx (⟨[0], [1], [1], [0], [], [], wf⟩ : DotDims ⟨2, ![K, M]⟩ ⟨2, ![N, K]⟩ ⟨2, ![M, N]⟩) (ix2 i j)
      ((contrEquiv1 (⟨[0], [1], [1], [0], [], [], wf⟩ : DotDims ⟨2, ![K, M]⟩ ⟨2, ![N, K]⟩ ⟨2, ![M, N]⟩) K rfl rfl).symm k) = ix2 j k :=
    funext fun a => Fin.ext (by
      match a with
      | ⟨0, _⟩ =>
        unfold DotDims.rhsIdx
        rw [dif_neg (by exact List.not_mem_nil), dif_pos (by exact List.mem_singleton.mpr rfl)]
        rfl
      | ⟨1, _⟩ => exact (DotDims.rhsIdx_val_of_single _ rfl _ _).trans hk)
  rw [el, er]

end Idealize.ShloMosaic.ColDot

end
-- ==== Proof.LibKeptColumn.lean ====
/-
  Two layout facts about a column kept after a row reduction (a sum with the reduced axis kept as a unit axis):
  a vector of length a cast to an [a, 1] column, and an [a, 1] column spread along the rows of an [a, b] array, each read
  at an index.
-/
import Idealize.ShloMosaic.Lib.Pipeline.Value
import Idealize.ShloMosaic.Lib.ValueIdx

noncomputable section

namespace Idealize.ShloMosaic.KeptColumn

open Idealize.ShloMosaic Idealize.ShloMosaic.ValueIdx

variable {α : Type}

/-- An `[a]` array cast to an `[a, 1]` column reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`: the unit axis is read at 0,
    the row axis at `p` (when `a = 1` the only row is row 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.KeptColumn

end
-- ==== Proof.KernelRow.lean ====
/-
  The body's arithmetic at one grid point, cut into five stages and each stage read at an index.

  At a grid point the body holds a [512, 256] block of decoder features (hidden unit × position), a [256, 256] block of the
  embedding (position × coordinate), the whole encoder arrays of the batch element ([2048, 256] each) and the two linear
  maps with their biases. It forms, for the 256 positions of the block at once: the queries (position × coordinate), the
  energies (position × encoder position), the attention weights (each row of energies shifted by its maximum,
  exponentiated and divided by the row's sum), the contexts (position × coordinate) and the output block (hidden unit ×
  position). Row `p` of each stage is the one-row function of Spec.lean applied to what the block holds for position `p`.
  A change of float format is the identity on the ideal values, so the four matrix products are the exact sums.
-/
import proofs.«141906_j8521215115924_1_alg».proof.Proof.Gen.KernelIdeal.Skeleton
import proofs.«141906_j8521215115924_1_alg».proof.Proof.Spec
import proofs.«141906_j8521215115924_1_alg».proof.Proof.LibRowDot
import proofs.«141906_j8521215115924_1_alg».proof.Proof.LibPlainMatmul
import proofs.«141906_j8521215115924_1_alg».proof.Proof.LibColDot
import proofs.«141906_j8521215115924_1_alg».proof.Proof.LibKeptColumn
import Idealize.ShloMosaic.Lib.ValueLayout
import Idealize.ShloMosaic.Lib.ValueIdx
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-! ## The stages, as the body writes them -/

/-- The queries of the block: (decoder block)ᵀ · W₁ᵀ + b₁ + embedding block, scaled. -/
def qVec (v0 : Vec Ideal S1x512x256 .f32) (v2 : Vec Ideal S256x512 .f32) (v6 : Vec Ideal S1x256 .f32) (v10 : Vec Ideal S1x256x256 .f32) : FVec Ideal S256x256 .f32 :=
  have v1 : FVec Ideal S512x256 .f32 := shapeCast S512x256 v0 shapeCasts_S1x512x256_S512x256
  have v3 : FVec Ideal S512x256 .bf16 := truncf .bf16 v1 bitsLt_bf16_f32
  have v4 : FVec Ideal S256x512 .bf16 := truncf .bf16 v2 bitsLt_bf16_f32
  have cst : FVec Ideal S256x256 .f32 := constant S256x256 .f32 0x00000000#32
  have v5 : FVec Ideal S256x256 .f32 := matmul dot_S512x256_S256x512_S256x256_0_1_1_0_n_n none v3 v4 cst
  have v7 : FVec Ideal S1x256 .f32 := shapeCast S1x256 v6 shapeCasts_S1x256_S1x256
  have v8 : FVec Ideal S256x256 .f32 := broadcastTo S256x256 v7 broadcasts_S1x256_S256x256
  have v9 : FVec Ideal S256x256 .f32 := addf v5 v8
  have v11 : FVec Ideal S256x256 .f32 := shapeCast S256x256 v10 shapeCasts_S1x256x256_S256x256
  have v12 : FVec Ideal S256x256 .f32 := addf v9 v11
  have cst_9 : Ideal .f32 := Scalar.ofBits .f32 0x3F562F5A#32
  have v13 : FVec Ideal S256x256 .f32 := broadcast S256x256 cst_9
  have v14 : FVec Ideal S256x256 .f32 := mulf v12 v13
  v14

/-- The energies of the block: queries · (encoder array)ᵀ. -/
def enVec (v14 : FVec Ideal S256x256 .f32) (v16 : Vec Ideal S1x2048x256 .f32) : FVec Ideal S256x2048 .f32 :=
  have v15 : FVec Ideal S256x256 .bf16 := truncf .bf16 v14 bitsLt_bf16_f32
  have v17 : FVec Ideal S2048x256 .f32 := shapeCast S2048x256 v16 shapeCasts_S1x2048x256_S2048x256
  have v18 : FVec Ideal S2048x256 .bf16 := truncf .bf16 v17 bitsLt_bf16_f32
  have cst_13 : FVec Ideal S256x2048 .f32 := constant S256x2048 .f32 0x00000000#32
  have v19 : FVec Ideal S256x2048 .f32 := matmul dot_S256x256_S2048x256_S256x2048_1_1_0_0_n_n none v15 v18 cst_13
  v19

/-- The attention weights of the block: each row shifted by its maximum, exponentiated, divided by its sum. -/
def softVec (v19 : FVec Ideal S256x2048 .f32) : FVec Ideal S256x2048 .f32 :=
  have v20 : FVec Ideal S256 .f32 := multiReduction .maximumf [1] S256 v19 0xFF800000#32 reduces_S256x2048_S256 (.inl rfl) rfl
  have v21 : FVec Ideal S256x1 .f32 := shapeCast S256x1 v20 shapeCasts_S256_S256x1
  have v22 : FVec Ideal S256x2048 .f32 := broadcastTo S256x2048 v21 broadcasts_S256x1_S256x2048
  have v23 : FVec Ideal S256x2048 .f32 := subf v19 v22
  have v24 : FVec Ideal S256x2048 .f32 := exp v23
  have v25 : FVec Ideal S256 .f32 := multiReduction .add [1] S256 v24 0x00000000#32 reduces_S256x2048_S256 (.inl rfl) rfl
  have v26 : FVec Ideal S256x1 .f32 := shapeCast S256x1 v25 shapeCasts_S256_S256x1
  have v27 : FVec Ideal S256x2048 .f32 := broadcastTo S256x2048 v26 broadcasts_S256x1_S256x2048
  have v28 : FVec Ideal S256x2048 .f32 := divf v24 v27
  v28

/-- The contexts of the block: weights · second encoder array. -/
def ctxVec (v28 : FVec Ideal S256x2048 .f32) (v33 : Vec Ideal S1x2048x256 .f32) : FVec Ideal S256x256 .f32 :=
  have v32 : FVec Ideal S256x2048 .bf16 := truncf .bf16 v28 bitsLt_bf16_f32
  have v34 : FVec Ideal S2048x256 .f32 := shapeCast S2048x256 v33 shapeCasts_S1x2048x256_S2048x256
  have v35 : FVec Ideal S2048x256 .bf16 := truncf .bf16 v34 bitsLt_bf16_f32
  have cst_22 : FVec Ideal S256x256 .f32 := constant S256x256 .f32 0x00000000#32
  have v36 : FVec Ideal S256x256 .f32 := matmul dot_S256x2048_S2048x256_S256x256_1_0_0_1_n_n none v32 v35 cst_22
  v36

/-- The output block: W₂ · contextsᵀ + b₂ + decoder block, scaled. -/
def outVec (v36 : FVec Ideal S256x256 .f32) (v0 : Vec Ideal S1x512x256 .f32) (v37 : Vec Ideal S512x256 .f32) (v41 : Vec Ideal S512x1 .f32) : FVec Ideal S1x512x256 .f32 :=
  have v1 : FVec Ideal S512x256 .f32 := shapeCast S512x256 v0 shapeCasts_S1x512x256_S512x256
  have v38 : FVec Ideal S512x256 .bf16 := truncf .bf16 v37 bitsLt_bf16_f32
  have v39 : FVec Ideal S256x256 .bf16 := truncf .bf16 v36 bitsLt_bf16_f32
  have cst_25 : FVec Ideal S512x256 .f32 := constant S512x256 .f32 0x00000000#32
  have v40 : FVec Ideal S512x256 .f32 := matmul dot_S512x256_S256x256_S512x256_1_1_0_0_n_n none v38 v39 cst_25
  have v42 : FVec Ideal S512x1 .f32 := shapeCast S512x1 v41 shapeCasts_S512x1_S512x1
  have v43 : FVec Ideal S512x256 .f32 := broadcastTo S512x256 v42 broadcasts_S512x1_S512x256
  have v44 : FVec Ideal S512x256 .f32 := addf v40 v43
  have v45 : FVec Ideal S512x256 .f32 := addf v44 v1
  have cst_28 : Ideal .f32 := Scalar.ofBits .f32 0x3F562F5A#32
  have v46 : FVec Ideal S512x256 .f32 := broadcast S512x256 cst_28
  have v47 : FVec Ideal S512x256 .f32 := mulf v45 v46
  have v50 : FVec Ideal S1x512x256 .f32 := shapeCast S1x512x256 v47 shapeCasts_S512x256_S1x512x256
  v50

/-- The first store's value is the weights stage over the energies over the queries. -/
theorem pay3_eq (v0 : Vec Ideal S1x512x256 .f32) (v2 : Vec Ideal S256x512 .f32) (v6 : Vec Ideal S1x256 .f32) (v10 : Vec Ideal S1x256x256 .f32) (v16 : Vec Ideal S1x2048x256 .f32) :
    k0_pay3 (F := Ideal) v0 v2 v6 v10 v16 = softVec (enVec (qVec v0 v2 v6 v10) v16) := rfl

/-- The second store's value is the output stage over the contexts over those weights. -/
theorem pay1_eq (v0 : Vec Ideal S1x512x256 .f32) (v2 : Vec Ideal S256x512 .f32) (v6 : Vec Ideal S1x256 .f32) (v10 : Vec Ideal S1x256x256 .f32) (v16 v33 : Vec Ideal S1x2048x256 .f32) (v37 : Vec Ideal S512x256 .f32) (v41 : Vec Ideal S512x1 .f32) :
    k0_pay1 (F := Ideal) (k0_pay2 v0) (k0_pay5 v0 v2 v6 v10 v16) v33 v37 v41
      = outVec (ctxVec (softVec (enVec (qVec v0 v2 v6 v10) v16)) v33) v0 v37 v41 := rfl

end Cert.KernelIdeal.Row

end
-- ==== Proof.KernelStages.lean ====
/-
  Each stage of the body read at an index: row `p` of a stage is the one-row function of Spec.lean of what the block
  holds for position `p`.
-/
import proofs.«141906_j8521215115924_1_alg».proof.Proof.KernelRow

noncomputable section

open scoped BigOperators

namespace Cert.KernelIdeal.Row

open Cert.KernelIdeal Cert.KernelIdeal.Gen Idealize.ShloMosaic Idealize.ShloMosaic.ValueIdx

/-- Row `p` of the queries at coordinate `e`. -/
theorem qVec_apply (v0 : Vec Ideal S1x512x256 .f32) (v2 : Vec Ideal S256x512 .f32) (v6 : Vec Ideal S1x256 .f32) (v10 : Vec Ideal S1x256x256 .f32) (p e : Fin 256) :
    qVec v0 v2 v6 v10 (ix2 p e)
      = Cert.Attn.query (fun h => v0 (ix3 (0 : Fin 1) h p)) (fun e h => v2 (ix2 e h)) (fun e => v6 (ix2 (0 : Fin 1) e))
          (fun e => v10 (ix3 (0 : Fin 1) p e)) e := by
  unfold qVec Cert.Attn.query Cert.Attn.scale
  show ((matmul (F := Ideal) dot_S512x256_S256x512_S256x256_0_1_1_0_n_n none _ _ _ : FVec Ideal S256x256 .f32) (ix2 p e)
      + (broadcastTo S256x256 _ broadcasts_S1x256_S256x256 : FVec Ideal S256x256 .f32) (ix2 p e)
      + (shapeCast S256x256 v10 shapeCasts_S1x256x256_S256x256 : FVec Ideal S256x256 .f32) (ix2 p e)) * Ideal.ofBits .f32 0x3F562F5A#32 = _
  rw [ColDot.matmul_zero_apply _ rfl rfl rfl rfl rfl rfl, broadcastTo_1b_ab_apply, shapeCast_self, shapeCast_1ab_ab_apply]
  refine congrArg (fun z => (z + _ + _) * _) (Finset.sum_congr rfl fun k _ => ?_)
  show (shapeCast S512x256 v0 shapeCasts_S1x512x256_S512x256 : FVec Ideal S512x256 .f32) (ix2 k p) * v2 (ix2 e k) = _
  rw [shapeCast_1ab_ab_apply]

/-- Row `p` of the energies at encoder position `s`. -/
theorem enVec_apply (q : FVec Ideal S256x256 .f32) (v16 : Vec Ideal S1x2048x256 .f32) (p : Fin 256) (s : Fin 2048) :
    enVec q v16 (ix2 p s) = Cert.Attn.energy (fun e => q (ix2 p e)) (fun s e => v16 (ix3 (0 : Fin 1) s e)) s := by
  unfold enVec Cert.Attn.energy
  refine (RowDot.matmul_zero_apply _ rfl rfl rfl rfl rfl rfl none _ _ p s).trans ?_
  refine Finset.sum_congr rfl fun e _ => ?_
  show q (ix2 p e) * (shapeCast S2048x256 v16 shapeCasts_S1x2048x256_S2048x256 : FVec Ideal S2048x256 .f32) (ix2 s e) = _
  rw [shapeCast_1ab_ab_apply]

/-- A row's maximum, kept as a column and spread back along the row, is at every place of row `p` the row's maximum. -/
theorem keptMax_apply (en : FVec Ideal S256x2048 .f32) (p : Fin 256) (s : Fin 2048) :
    (broadcastTo S256x2048 (shapeCast S256x1 (multiReduction (F := Ideal) .maximumf [1] S256 en 0xFF800000#32 reduces_S256x2048_S256 (.inl rfl) rfl) shapeCasts_S256_S256x1) broadcasts_S256x1_S256x2048 : FVec Ideal S256x2048 .f32) (ix2 p s)
      = Cert.Attn.rowMax (fun s => en (ix2 p s)) := by
  refine (KeptColumn.broadcastTo_a1_ab_apply _ _ p s).trans ?_
  refine (KeptColumn.shapeCast_a_a1_apply _ _ p 0).trans ?_
  refine (Ideal.multiReduction_maximumf_single en _ reduces_S256x2048_S256 (.inl rfl) rfl (ix1 p)).trans ?_
  unfold Cert.Attn.rowMax Cert.Attn.floorVal
  exact congrArg (fun f => (Finset.univ : Finset (Fin 2048)).fold max (Ideal.ofBits .f32 0xFF800000#32) f)
    (funext fun k => congrArg en (funext fun a => Fin.ext (by match a with | ⟨0, _⟩ => rfl | ⟨1, _⟩ => rfl)))

/-- A row's sum, kept as a column and spread back along the row, is at every place of row `p` the row's sum. -/
theorem keptSum_apply (pv : FVec Ideal S256x2048 .f32) (p : Fin 256) (s : Fin 2048) :
    (broadcastTo S256x2048 (shapeCast S256x1 (multiReduction (F := Ideal) .add [1] S256 pv 0x00000000#32 reduces_S256x2048_S256 (.inl rfl) rfl) shapeCasts_S256_S256x1) broadcasts_S256x1_S256x2048 : FVec Ideal S256x2048 .f32) (ix2 p s)
      = ∑ s' : Fin 2048, pv (ix2 p s') := by
  refine (KeptColumn.broadcastTo_a1_ab_apply _ _ p s).trans ?_
  refine (KeptColumn.shapeCast_a_a1_apply _ _ p 0).trans ?_
  refine (Ideal.multiReduction_add_single pv _ reduces_S256x2048_S256 (.inl rfl) rfl (ix1 p)).trans ?_
  exact Finset.sum_congr rfl fun k _ => congrArg pv (funext fun a => Fin.ext (by match a with | ⟨0, _⟩ => rfl | ⟨1, _⟩ => rfl))

/-- The shifted exponentials of the block, as the body writes them. -/
def expVec (en : FVec Ideal S256x2048 .f32) : FVec Ideal S256x2048 .f32 :=
  exp (subf en (broadcastTo S256x2048 (shapeCast S256x1 (multiReduction (F := Ideal) .maximumf [1] S256 en 0xFF800000#32 reduces_S256x2048_S256 (.inl rfl) rfl) shapeCasts_S256_S256x1) broadcasts_S256x1_S256x2048))

/-- Row `p` of the shifted exponentials at `s`. -/
theorem expVec_apply (en : FVec Ideal S256x2048 .f32) (p : Fin 256) (s : Fin 2048) :
    expVec en (ix2 p s) = Cert.Attn.expo (fun s => en (ix2 p s)) s := by
  unfold expVec Cert.Attn.expo
  exact congrArg (fun z => Ideal.exp (en (ix2 p s) - z)) (keptMax_apply en p s)

/-- The weights are the shifted exponentials over their row sums. -/
theorem softVec_eq (en : FVec Ideal S256x2048 .f32) :
    softVec en = divf (expVec en) (broadcastTo S256x2048 (shapeCast S256x1 (multiReduction (F := Ideal) .add [1] S256 (expVec en) 0x00000000#32 reduces_S256x2048_S256 (.inl rfl) rfl) shapeCasts_S256_S256x1) broadcasts_S256x1_S256x2048) := rfl

/-- Row `p` of the weights at `s`. -/
theorem softVec_apply (en : FVec Ideal S256x2048 .f32) (p : Fin 256) (s : Fin 2048) :
    softVec en (ix2 p s) = Cert.Attn.weight (fun s => en (ix2 p s)) s := by
  rw [softVec_eq]
  unfold Cert.Attn.weight
  exact congrArg₂ Ideal.div (expVec_apply en p s)
    ((keptSum_apply (expVec en) p s).trans (Finset.sum_congr rfl fun s' _ => expVec_apply en p s'))

/-- Row `p` of the contexts at coordinate `e`. -/
theorem ctxVec_apply (a : FVec Ideal S256x2048 .f32) (v33 : Vec Ideal S1x2048x256 .f32) (p e : Fin 256) :
    ctxVec a v33 (ix2 p e) = Cert.Attn.context (fun s => a (ix2 p s)) (fun s e => v33 (ix3 (0 : Fin 1) s e)) e := by
  unfold ctxVec Cert.Attn.context
  refine (PlainMatmul.matmul_zero_apply _ rfl rfl rfl rfl rfl rfl none _ _ p e).trans ?_
  refine Finset.sum_congr rfl fun s _ => ?_
  show a (ix2 p s) * (shapeCast S2048x256 v33 shapeCasts_S1x2048x256_S2048x256 : FVec Ideal S2048x256 .f32) (ix2 s e) = _
  rw [shapeCast_1ab_ab_apply]

/-- The output block at hidden unit `h` and position `p`. -/
theorem outVec_apply (c : FVec Ideal S256x256 .f32) (v0 : Vec Ideal S1x512x256 .f32) (v37 : Vec Ideal S512x256 .f32) (v41 : Vec Ideal S512x1 .f32)
    (u : Fin 1) (h : Fin 512) (p : Fin 256) :
    outVec c v0 v37 v41 (ix3 u h p)
      = Cert.Attn.hidden (fun e => c (ix2 p e)) (fun e => v37 (ix2 h e)) (v41 (ix2 h (0 : Fin 1))) (v0 (ix3 (0 : Fin 1) h p)) := by
  unfold outVec Cert.Attn.hidden Cert.Attn.scale
  refine (shapeCast_ab_1ab_apply _ _ u h p).trans ?_
  show ((matmul (F := Ideal) dot_S512x256_S256x256_S512x256_1_1_0_0_n_n none _ _ _ : FVec Ideal S512x256 .f32) (ix2 h p)
      + (broadcastTo S512x256 _ broadcasts_S512x1_S512x256 : FVec Ideal S512x256 .f32) (ix2 h p)
      + (shapeCast S512x256 v0 shapeCasts_S1x512x256_S512x256 : FVec Ideal S512x256 .f32) (ix2 h p)) * Ideal.ofBits .f32 0x3F562F5A#32 = _
  rw [RowDot.matmul_zero_apply _ rfl rfl rfl rfl rfl rfl, KeptColumn.broadcastTo_a1_ab_apply, shapeCast_self, shapeCast_1ab_ab_apply]
  rfl

/-- Row `p` of the weights the block computes, at `s`. -/
theorem weights_row (v0 : Vec Ideal S1x512x256 .f32) (v2 : Vec Ideal S256x512 .f32) (v6 : Vec Ideal S1x256 .f32) (v10 : Vec Ideal S1x256x256 .f32) (v16 : Vec Ideal S1x2048x256 .f32) (p : Fin 256) (s : Fin 2048) :
    softVec (enVec (qVec v0 v2 v6 v10) v16) (ix2 p s)
      = Cert.Attn.weight (Cert.Attn.energy (Cert.Attn.query (fun h => v0 (ix3 (0 : Fin 1) h p)) (fun e h => v2 (ix2 e h)) (fun e => v6 (ix2 (0 : Fin 1) e))
          (fun e => v10 (ix3 (0 : Fin 1) p e))) (fun s e => v16 (ix3 (0 : Fin 1) s e))) s := by
  refine (softVec_apply _ p s).trans ?_
  refine congrArg (fun en => Cert.Attn.weight en s) (funext fun s' => ?_)
  refine (enVec_apply _ _ p s').trans ?_
  exact congrArg (fun q => Cert.Attn.energy q (fun s e => v16 (ix3 (0 : Fin 1) s e)) s') (funext fun e => qVec_apply v0 v2 v6 v10 p e)

/-- THE FIRST STORE at (p, s): the attention weight of the row the block holds for position `p`. -/
theorem weights_apply (v0 : Vec Ideal S1x512x256 .f32) (v2 : Vec Ideal S256x512 .f32) (v6 : Vec Ideal S1x256 .f32) (v10 : Vec Ideal S1x256x256 .f32) (v16 : Vec Ideal S1x2048x256 .f32) (p : Fin 256) (s : Fin 2048) :
    k0_pay3 (F := Ideal) v0 v2 v6 v10 v16 (ix2 p s)
      = Cert.Attn.weight (Cert.Attn.energy (Cert.Attn.query (fun h => v0 (ix3 (0 : Fin 1) h p)) (fun e h => v2 (ix2 e h)) (fun e => v6 (ix2 (0 : Fin 1) e))
          (fun e => v10 (ix3 (0 : Fin 1) p e))) (fun s e => v16 (ix3 (0 : Fin 1) s e))) s := by
  rw [pay3_eq]
  exact weights_row v0 v2 v6 v10 v16 p s

/-- THE SECOND STORE at (u, h, p): the output of the row the block holds for position `p`, at hidden unit `h`. -/
theorem out_apply (v0 : Vec Ideal S1x512x256 .f32) (v2 : Vec Ideal S256x512 .f32) (v6 : Vec Ideal S1x256 .f32) (v10 : Vec Ideal S1x256x256 .f32) (v16 v33 : Vec Ideal S1x2048x256 .f32) (v37 : Vec Ideal S512x256 .f32) (v41 : Vec Ideal S512x1 .f32)
    (u : Fin 1) (h : Fin 512) (p : Fin 256) :
    k0_pay1 (F := Ideal) (k0_pay2 v0) (k0_pay5 v0 v2 v6 v10 v16) v33 v37 v41 (ix3 u h p)
      = Cert.Attn.hidden (Cert.Attn.context (Cert.Attn.weight (Cert.Attn.energy (Cert.Attn.query (fun h => v0 (ix3 (0 : Fin 1) h p)) (fun e h => v2 (ix2 e h)) (fun e => v6 (ix2 (0 : Fin 1) e))
          (fun e => v10 (ix3 (0 : Fin 1) p e))) (fun s e => v16 (ix3 (0 : Fin 1) s e)))) (fun s e => v33 (ix3 (0 : Fin 1) s e)))
          (fun e => v37 (ix2 h e)) (v41 (ix2 h (0 : Fin 1))) (v0 (ix3 (0 : Fin 1) h p)) := by
  rw [pay1_eq]
  refine (outVec_apply _ v0 v37 v41 u h p).trans ?_
  refine congrArg (fun c => Cert.Attn.hidden c (fun e => v37 (ix2 h e)) (v41 (ix2 h (0 : Fin 1))) (v0 (ix3 (0 : Fin 1) h p))) (funext fun e => ?_)
  refine (ctxVec_apply _ v33 p e).trans ?_
  exact congrArg (fun a => Cert.Attn.context a (fun s e => v33 (ix3 (0 : Fin 1) s e)) e) (funext fun s => weights_row v0 v2 v6 v10 v16 p s)

end Cert.KernelIdeal.Row

end
-- ==== Proof.KernelValue.lean ====
/-
  From blocks to the arrays: what every grid point writes back to the two result windows is the block, at that point, of
  the specification's two results of the argument arrays; the blocks cover the arrays, so the arrays end holding them.

  The grid is 8 × 8 points (b, g): b the batch element, g the block of 256 decoder positions. Position p of the block of
  point (b, g) is decoder position 256 g + p of batch element b.
-/
import proofs.«141906_j8521215115924_1_alg».proof.Proof.Gen.KernelIdeal.Value
import proofs.«141906_j8521215115924_1_alg».proof.Proof.KernelStages
import proofs.«141906_j8521215115924_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Whole

open Cert.KernelIdeal Cert.KernelIdeal.Gen Cert.KernelIdeal.Value Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The argument arrays, and the position of a block row -/

abbrev A0 (c : Dev nD) : S8x512x2048.Idx → EReal := m ((c.tc : Thread nD τ).loc main_arg0)
abbrev A1 (c : Dev nD) : S8x2048x256.Idx → EReal := m ((c.tc : Thread nD τ).loc main_arg1)
abbrev A2 (c : Dev nD) : S8x2048x256.Idx → EReal := m ((c.tc : Thread nD τ).loc main_arg2)
abbrev A3 (c : Dev nD) : S8x2048x256.Idx → EReal := m ((c.tc : Thread nD τ).loc main_arg3)
abbrev A4 (c : Dev nD) : S256x512.Idx → EReal := m ((c.tc : Thread nD τ).loc main_arg4)
abbrev A5 (c : Dev nD) : S256.Idx → EReal := m ((c.tc : Thread nD τ).loc main_arg5)
abbrev A6 (c : Dev nD) : S512x256.Idx → EReal := m ((c.tc : Thread nD τ).loc main_arg6)
abbrev A7 (c : Dev nD) : S512.Idx → EReal := m ((c.tc : Thread nD τ).loc main_arg7)

/-- Decoder position 256 g + p: row p of the g-th block of 256 positions. -/
abbrev pos (g : Fin 8) (p : Fin 256) : Fin 2048 := ⟨256 * g.val + p.val, by omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps, decided over the 64 points -/

theorem idx0 : ∀ t : Fin cfg0.N, win0_0.index t (0 : Fin 3) = (grid0.coords t 0).val ∧ win0_0.index t (1 : Fin 3) = 0
    ∧ win0_0.index t (2 : Fin 3) = (grid0.coords t 1).val :=
  (by decide +kernel : ∀ t : Fin grid0.N, _)
theorem idx1 : ∀ t : Fin cfg0.N, win0_1.index t (0 : Fin 3) = (grid0.coords t 0).val ∧ win0_1.index t (1 : Fin 3) = (grid0.coords t 1).val
    ∧ win0_1.index t (2 : Fin 3) = 0 :=
  (by decide +kernel : ∀ t : Fin grid0.N, _)
theorem idx2 : ∀ t : Fin cfg0.N, win0_2.index t (0 : Fin 3) = (grid0.coords t 0).val ∧ win0_2.index t (1 : Fin 3) = 0
    ∧ win0_2.index t (2 : Fin 3) = 0 :=
  (by decide +kernel : ∀ t : Fin grid0.N, _)
theorem idx3 : ∀ t : Fin cfg0.N, win0_3.index t (0 : Fin 3) = (grid0.coords t 0).val ∧ win0_3.index t (1 : Fin 3) = 0
    ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 3) = (grid0.coords t 0).val ∧ win0_8.index t (1 : Fin 3) = (grid0.coords t 1).val
    ∧ win0_8.index t (2 : Fin 3) = 0 :=
  (by decide +kernel : ∀ t : Fin grid0.N, _)
theorem idx9 : ∀ t : Fin cfg0.N, win0_9.index t (0 : Fin 3) = (grid0.coords t 0).val ∧ win0_9.index t (1 : Fin 3) = 0
    ∧ win0_9.index t (2 : Fin 3) = (grid0.coords t 1).val :=
  (by decide +kernel : ∀ t : Fin grid0.N, _)

/-! ## Each input block as a read of its array -/

/-- Block 0 at (0, h, p) is the decoder features of the point's batch element at hidden unit h and position 256 g + p. -/
theorem blk0_apply (c : Dev nD) (t : Fin cfg0.N) (h : Fin 512) (p : Fin 256) :
    (iblk m c 0 t : Vec Ideal S1x512x256 .f32) (ix3 (0 : Fin 1) h p)
      = A0 m c (ix3 (grid0.coords t 0) h (pos (grid0.coords t 1) p)) := by
  obtain ⟨e0, e1, e2⟩ := idx0 t
  unfold iblk
  rw [View.read_apply]
  show V m c main_arg0 _ = _
  rw [V_main_arg0]
  show m ((c.tc : Thread nD τ).loc main_arg0) _ = m ((c.tc : Thread nD τ).loc main_arg0) _
  congr 1
  funext a
  apply Fin.ext
  match a with
  | ⟨0, _⟩ => show win0_0.index t (0 : Fin 3) * 1 + 1 * 0 = (grid0.coords t 0).val; omega
  | ⟨1, _⟩ => show win0_0.index t (1 : Fin 3) * 512 + 1 * h.val = h.val; omega
  | ⟨2, _⟩ => show win0_0.index t (2 : Fin 3) * 256 + 1 * p.val = 256 * (grid0.coords t 1).val + p.val; omega

/-- Block 1 at (0, p, e) is the embedding of the point's batch element at position 256 g + p. -/
theorem blk1_apply (c : Dev nD) (t : Fin cfg0.N) (p : Fin 256) (e : Fin 256) :
    (iblk m c 1 t : Vec Ideal S1x256x256 .f32) (ix3 (0 : Fin 1) p e)
      = A1 m c (ix3 (grid0.coords t 0) (pos (grid0.coords t 1) p) e) := by
  obtain ⟨e0, e1, e2⟩ := idx1 t
  unfold iblk
  rw [View.read_apply]
  show V m c main_arg1 _ = _
  rw [V_main_arg1]
  show m ((c.tc : Thread nD τ).loc main_arg1) _ = m ((c.tc : Thread nD τ).loc main_arg1) _
  congr 1
  funext a
  apply Fin.ext
  match a with
  | ⟨0, _⟩ => show win0_1.index t (0 : Fin 3) * 1 + 1 * 0 = (grid0.coords t 0).val; omega
  | ⟨1, _⟩ => show win0_1.index t (1 : Fin 3) * 256 + 1 * p.val = 256 * (grid0.coords t 1).val + p.val; omega
  | ⟨2, _⟩ => show win0_1.index t (2 : Fin 3) * 256 + 1 * e.val = e.val; omega

/-- Block 2 at (0, s, e) is the first encoder array of the point's batch element. -/
theorem blk2_apply (c : Dev nD) (t : Fin cfg0.N) (s : Fin 2048) (e : Fin 256) :
    (iblk m c 2 t : Vec Ideal S1x2048x256 .f32) (ix3 (0 : Fin 1) s e) = A2 m c (ix3 (grid0.coords t 0) s e) := by
  obtain ⟨e0, e1, e2⟩ := idx2 t
  unfold iblk
  rw [View.read_apply]
  show V m c main_arg2 _ = _
  rw [V_main_arg2]
  show m ((c.tc : Thread nD τ).loc main_arg2) _ = m ((c.tc : Thread nD τ).loc main_arg2) _
  congr 1
  funext a
  apply Fin.ext
  match a with
  | ⟨0, _⟩ => show win0_2.index t (0 : Fin 3) * 1 + 1 * 0 = (grid0.coords t 0).val; omega
  | ⟨1, _⟩ => show win0_2.index t (1 : Fin 3) * 2048 + 1 * s.val = s.val; omega
  | ⟨2, _⟩ => show win0_2.index t (2 : Fin 3) * 256 + 1 * e.val = e.val; omega

/-- Block 3 at (0, s, e) is the second encoder array of the point's batch element. -/
theorem blk3_apply (c : Dev nD) (t : Fin cfg0.N) (s : Fin 2048) (e : Fin 256) :
    (iblk m c 3 t : Vec Ideal S1x2048x256 .f32) (ix3 (0 : Fin 1) s e) = A3 m c (ix3 (grid0.coords t 0) s e) := by
  obtain ⟨e0, e1, e2⟩ := idx3 t
  unfold iblk
  rw [View.read_apply]
  show V m c main_arg3 _ = _
  rw [V_main_arg3]
  show m ((c.tc : Thread nD τ).loc main_arg3) _ = m ((c.tc : Thread nD τ).loc main_arg3) _
  congr 1
  funext a
  apply Fin.ext
  match a with
  | ⟨0, _⟩ => show win0_3.index t (0 : Fin 3) * 1 + 1 * 0 = (grid0.coords t 0).val; omega
  | ⟨1, _⟩ => show win0_3.index t (1 : Fin 3) * 2048 + 1 * s.val = s.val; omega
  | ⟨2, _⟩ => show win0_3.index t (2 : Fin 3) * 256 + 1 * e.val = e.val; omega

/-- Block 4 is the whole first weight. -/
theorem blk4_apply (c : Dev nD) (t : Fin cfg0.N) (e : Fin 256) (h : Fin 512) :
    (iblk m c 4 t : Vec Ideal S256x512 .f32) (ix2 e h) = A4 m c (ix2 e h) := by
  obtain ⟨e0, e1⟩ := idx4 t
  unfold iblk
  rw [View.read_apply]
  show V m c main_arg4 _ = _
  rw [V_main_arg4]
  show m ((c.tc : Thread nD τ).loc main_arg4) _ = m ((c.tc : Thread nD τ).loc main_arg4) _
  congr 1
  funext a
  apply Fin.ext
  match a with
  | ⟨0, _⟩ => show win0_4.index t (0 : Fin 2) * 256 + 1 * e.val = e.val; omega
  | ⟨1, _⟩ => show win0_4.index t (1 : Fin 2) * 512 + 1 * h.val = h.val; omega

/-- Block 6 is the whole second weight. -/
theorem blk6_apply (c : Dev nD) (t : Fin cfg0.N) (h : Fin 512) (e : Fin 256) :
    (iblk m c 6 t : Vec Ideal S512x256 .f32) (ix2 h e) = A6 m c (ix2 h e) := by
  obtain ⟨e0, e1⟩ := idx6 t
  unfold iblk
  rw [View.read_apply]
  show V m c main_arg6 _ = _
  rw [V_main_arg6]
  show m ((c.tc : Thread nD τ).loc main_arg6) _ = m ((c.tc : Thread nD τ).loc main_arg6) _
  congr 1
  funext a
  apply Fin.ext
  match a with
  | ⟨0, _⟩ => show win0_6.index t (0 : Fin 2) * 512 + 1 * h.val = h.val; omega
  | ⟨1, _⟩ => show win0_6.index t (1 : Fin 2) * 256 + 1 * e.val = e.val; omega

/-- The first bias as the region finds it: the [256] array laid out as [1, 256]. -/
theorem V_v0_apply (c : Dev nD) (e : Fin 256) :
    (V m c main_v0 : S1x256.Idx → EReal) (ix2 (0 : Fin 1) e) = A5 m c (ix1 e) := by
  have e1 : (V m c main_v0 : S1x256.Idx → EReal) = shapeCast S1x256 (A5 m c) shapeCasts_S256_S1x256 := by
    dsimp only [Gen.V, Gen.hostOps0]; after_results; rfl
  rw [e1]
  exact shapeCast_a_1a_apply _ _ 0 e

/-- The second bias as the region finds it: the [512] array laid out as [512, 1]. -/
theorem V_v1_apply (c : Dev nD) (h : Fin 512) :
    (V m c main_v1 : S512x1.Idx → EReal) (ix2 h (0 : Fin 1)) = A7 m c (ix1 h) := by
  have e1 : (V m c main_v1 : S512x1.Idx → EReal) = shapeCast S512x1 (A7 m c) shapeCasts_S512_S512x1 := by
    dsimp only [Gen.V, Gen.hostOps0]; after_results; rfl
  rw [e1]
  refine shapeCast_apply _ _ _ (ix1 h) ?_
  rw [Shape.rowMajor_val_one, Shape.rowMajor_val_two]
  show h.val = h.val * 1 + 0
  omega

/-- Block 5 at (0, e) is the first bias. -/
theorem blk5_apply (c : Dev nD) (t : Fin cfg0.N) (e : Fin 256) :
    (iblk m c 5 t : Vec Ideal S1x256 .f32) (ix2 (0 : Fin 1) e) = A5 m c (ix1 e) := by
  obtain ⟨e0, e1⟩ := idx5 t
  unfold iblk
  rw [View.read_apply]
  show (V m c main_v0 : S1x256.Idx → EReal) _ = _
  refine Eq.trans (congrArg (V m c main_v0 : S1x256.Idx → EReal) ?_) (V_v0_apply m c e)
  funext a
  apply Fin.ext
  match a with
  | ⟨0, _⟩ => show win0_5.index t (0 : Fin 2) * 1 + 1 * 0 = 0; omega
  | ⟨1, _⟩ => show win0_5.index t (1 : Fin 2) * 256 + 1 * e.val = e.val; omega

/-- Block 7 at (h, 0) is the second bias. -/
theorem blk7_apply (c : Dev nD) (t : Fin cfg0.N) (h : Fin 512) :
    (iblk m c 7 t : Vec Ideal S512x1 .f32) (ix2 h (0 : Fin 1)) = A7 m c (ix1 h) := by
  obtain ⟨e0, e1⟩ := idx7 t
  unfold iblk
  rw [View.read_apply]
  show (V m c main_v1 : S512x1.Idx → EReal) _ = _
  refine Eq.trans (congrArg (V m c main_v1 : S512x1.Idx → EReal) ?_) (V_v1_apply m c h)
  funext a
  apply Fin.ext
  match a with
  | ⟨0, _⟩ => show win0_7.index t (0 : Fin 2) * 512 + 1 * h.val = h.val; omega
  | ⟨1, _⟩ => show win0_7.index t (1 : Fin 2) * 1 + 1 * 0 = 0; omega

/-! ## What a point leaves in the two output blocks, over variables -/

/-- The first store's block at y is the weights' payload at (y 1, y 2). -/
theorem out8_at (P0 : Vec Ideal S1x512x256 .f32) (P1 : Vec Ideal S1x256x256 .f32) (P2 P3 : Vec Ideal S1x2048x256 .f32)
    (P4 : Vec Ideal S256x512 .f32) (P5 : Vec Ideal S1x256 .f32) (P6 : Vec Ideal S512x256 .f32) (P7 : Vec Ideal S512x1 .f32)
    (y : S1x256x2048.Idx) :
    out0_8 P0 P1 P2 P3 P4 P5 P6 P7 y = k0_pay3 (F := Ideal) P0 P4 P5 P1 P2 (ix2 (y 1) (y 2)) := by
  unfold out0_8
  rw [Value.canon8_eq]
  simp only [View.ld_unit_zero (S := S1x512x256) hz3, View.ld_unit_zero (S := S256x512) hz2, View.ld_unit_zero (S := S1x256) hz2,
    View.ld_unit_zero (S := S1x256x256) hz3, View.ld_unit_zero (S := S1x2048x256) hz3]
  show k0_pay3 (F := Ideal) P0 P4 P5 P1 P2 (ix8_0 y) = _
  exact congrArg _ (funext fun a => Fin.ext (by match a with | ⟨0, _⟩ => rfl | ⟨1, _⟩ => rfl))

/-- The second store's block is its payload. -/
theorem out9_at (P0 : Vec Ideal S1x512x256 .f32) (P1 : Vec Ideal S1x256x256 .f32) (P2 P3 : Vec Ideal S1x2048x256 .f32)
    (P4 : Vec Ideal S256x512 .f32) (P5 : Vec Ideal S1x256 .f32) (P6 : Vec Ideal S512x256 .f32) (P7 : Vec Ideal S512x1 .f32)
    (y : S1x512x256.Idx) :
    out0_9 P0 P1 P2 P3 P4 P5 P6 P7 y
      = k0_pay1 (F := Ideal) (k0_pay2 P0) (k0_pay5 P0 P4 P5 P1 P2) P3 P6 P7 (ix3 (y 0) (y 1) (y 2)) := by
  unfold out0_9
  rw [View.canon_unit_zero hz3]
  simp only [View.ld_unit_zero (S := S1x512x256) hz3, View.ld_unit_zero (S := S256x512) hz2, View.ld_unit_zero (S := S1x256) hz2,
    View.ld_unit_zero (S := S1x256x256) hz3, View.ld_unit_zero (S := S1x2048x256) hz3, View.ld_unit_zero (S := S512x256) hz2,
    View.ld_unit_zero (S := S512x1) hz2]
  exact congrArg _ (eq_ix3 y)

/-- The weights' payload at (p, s), when row p of the blocks is row r of batch element b of the arrays: the attention
    weight of row (b, r) at s. -/
theorem row8 (P0 : Vec Ideal S1x512x256 .f32) (P1 : Vec Ideal S1x256x256 .f32) (P2 : Vec Ideal S1x2048x256 .f32)
    (P4 : Vec Ideal S256x512 .f32) (P5 : Vec Ideal S1x256 .f32)
    (a0 : S8x512x2048.Idx → EReal) (a1 a2 : S8x2048x256.Idx → EReal) (a4 : S256x512.Idx → EReal) (a5 : S256.Idx → EReal)
    (b : Fin 8) (r : Fin 2048) (p : Fin 256) (s : Fin 2048)
    (h0 : ∀ h : Fin 512, P0 (ix3 (0 : Fin 1) h p) = a0 (ix3 b h r))
    (h4 : ∀ (e : Fin 256) (h : Fin 512), P4 (ix2 e h) = a4 (ix2 e h))
    (h5 : ∀ e : Fin 256, P5 (ix2 (0 : Fin 1) e) = a5 (ix1 e))
    (h1 : ∀ e : Fin 256, P1 (ix3 (0 : Fin 1) p e) = a1 (ix3 b r e))
    (h2 : ∀ (s : Fin 2048) (e : Fin 256), P2 (ix3 (0 : Fin 1) s e) = a2 (ix3 b s e)) :
    k0_pay3 (F := Ideal) P0 P4 P5 P1 P2 (ix2 p s) = Cert.Attn.attnRow a0 a1 a2 a4 a5 b r s := by
  have e0 : (fun h : Fin 512 => P0 (ix3 (0 : Fin 1) h p)) = fun h => a0 (ix3 b h r) := funext h0
  have e4 : (fun (e : Fin 256) (h : Fin 512) => P4 (ix2 e h)) = fun e h => a4 (ix2 e h) := funext fun e => funext (h4 e)
  have e5 : (fun e : Fin 256 => P5 (ix2 (0 : Fin 1) e)) = fun e => a5 (ix1 e) := funext h5
  have e1 : (fun e : Fin 256 => P1 (ix3 (0 : Fin 1) p e)) = fun e => a1 (ix3 b r e) := funext h1
  have e2 : (fun (s : Fin 2048) (e : Fin 256) => P2 (ix3 (0 : Fin 1) s e)) = fun s e => a2 (ix3 b s e) := funext fun s => funext (h2 s)
  rw [Row.weights_apply, e0, e4, e5, e1, e2]
  rfl

/-- The output's payload at (u, h, p), likewise: the output of row (b, r) at hidden unit h. -/
theorem row9 (P0 : Vec Ideal S1x512x256 .f32) (P1 : Vec Ideal S1x256x256 .f32) (P2 P3 : Vec Ideal S1x2048x256 .f32)
    (P4 : Vec Ideal S256x512 .f32) (P5 : Vec Ideal S1x256 .f32) (P6 : Vec Ideal S512x256 .f32) (P7 : Vec Ideal S512x1 .f32)
    (a0 : S8x512x2048.Idx → EReal) (a1 a2 a3 : S8x2048x256.Idx → EReal) (a4 : S256x512.Idx → EReal) (a5 : S256.Idx → EReal)
    (a6 : S512x256.Idx → EReal) (a7 : S512.Idx → EReal)
    (b : Fin 8) (r : Fin 2048) (u : Fin 1) (h : Fin 512) (p : Fin 256)
    (h0 : ∀ h : Fin 512, P0 (ix3 (0 : Fin 1) h p) = a0 (ix3 b h r))
    (h4 : ∀ (e : Fin 256) (h : Fin 512), P4 (ix2 e h) = a4 (ix2 e h))
    (h5 : ∀ e : Fin 256, P5 (ix2 (0 : Fin 1) e) = a5 (ix1 e))
    (h1 : ∀ e : Fin 256, P1 (ix3 (0 : Fin 1) p e) = a1 (ix3 b r e))
    (h2 : ∀ (s : Fin 2048) (e : Fin 256), P2 (ix3 (0 : Fin 1) s e) = a2 (ix3 b s e))
    (h3 : ∀ (s : Fin 2048) (e : Fin 256), P3 (ix3 (0 : Fin 1) s e) = a3 (ix3 b s e))
    (h6 : ∀ e : Fin 256, P6 (ix2 h e) = a6 (ix2 h e))
    (h7 : P7 (ix2 h (0 : Fin 1)) = a7 (ix1 h)) :
    k0_pay1 (F := Ideal) (k0_pay2 P0) (k0_pay5 P0 P4 P5 P1 P2) P3 P6 P7 (ix3 u h p)
      = Cert.Attn.conved a0 a1 a2 a3 a4 a5 a6 a7 (ix3 b h r) := by
  have e0 : (fun h : Fin 512 => P0 (ix3 (0 : Fin 1) h p)) = fun h => a0 (ix3 b h r) := funext h0
  have e4 : (fun (e : Fin 256) (h : Fin 512) => P4 (ix2 e h)) = fun e h => a4 (ix2 e h) := funext fun e => funext (h4 e)
  have e5 : (fun e : Fin 256 => P5 (ix2 (0 : Fin 1) e)) = fun e => a5 (ix1 e) := funext h5
  have e1 : (fun e : Fin 256 => P1 (ix3 (0 : Fin 1) p e)) = fun e => a1 (ix3 b r e) := funext h1
  have e2 : (fun (s : Fin 2048) (e : Fin 256) => P2 (ix3 (0 : Fin 1) s e)) = fun s e => a2 (ix3 b s e) := funext fun s => funext (h2 s)
  have e3 : (fun (s : Fin 2048) (e : Fin 256) => P3 (ix3 (0 : Fin 1) s e)) = fun s e => a3 (ix3 b s e) := funext fun s => funext (h3 s)
  have e6 : (fun e : Fin 256 => P6 (ix2 h e)) = fun e => a6 (ix2 h e) := funext h6
  rw [Row.out_apply, e0, e4, e5, e1, e2, e3, e6, h7, h0 h]
  rfl

/-! ## What each point writes back -/

/-- Point t writes back to the first result's window the block, at t, of the specification's attention weights. -/
theorem flushed8_eq (c : Dev nD) (t : Fin cfg0.N) :
    (dats m 0 c).flushed 8 t = ((cfg0.win 8).blk t).view.read (Elt Ideal)
      (Cert.Attn.attn (A0 m c) (A1 m c) (A2 m c) (A4 m c) (A5 m c)) := by
  rw [Value.flushed8]
  obtain ⟨e0, e1, e2⟩ := idx8 t
  funext y
  show out0_8 (iblk m c 0 t) (iblk m c 1 t) (iblk m c 2 t) (iblk m c 3 t) (iblk m c 4 t) (iblk m c 5 t) (iblk m c 6 t) (iblk m c 7 t) y
    = Cert.Attn.attn (A0 m c) (A1 m c) (A2 m c) (A4 m c) (A5 m c) (((cfg0.win 8).blk t).view.emb y)
  have hy0 : (y 0).val < 1 := (y 0).isLt
  have hy1 : (y 1).val < 256 := (y 1).isLt
  have hy2 : (y 2).val < 2048 := (y 2).isLt
  have hi : ((cfg0.win 8).blk t).view.emb y = ix3 (grid0.coords t 0) (pos (grid0.coords t 1) (y 1)) (y 2) := by
    funext a
    apply Fin.ext
    match a with
    | ⟨0, _⟩ => show win0_8.index t (0 : Fin 3) * 1 + 1 * (y 0).val = (grid0.coords t 0).val; omega
    | ⟨1, _⟩ => show win0_8.index t (1 : Fin 3) * 256 + 1 * (y 1).val = 256 * (grid0.coords t 1).val + (y 1).val; omega
    | ⟨2, _⟩ => show win0_8.index t (2 : Fin 3) * 2048 + 1 * (y 2).val = (y 2).val; omega
  rw [hi]
  refine (out8_at _ _ _ _ _ _ _ _ y).trans ?_
  exact row8 _ _ _ _ _ (A0 m c) (A1 m c) (A2 m c) (A4 m c) (A5 m c) (grid0.coords t 0) (pos (grid0.coords t 1) (y 1)) (y 1) (y 2)
    (fun h => blk0_apply m c t h (y 1)) (fun e h => blk4_apply m c t e h) (fun e => blk5_apply m c t e)
    (fun e => blk1_apply m c t (y 1) e) (fun s e => blk2_apply m c t s e)

/-- Point t writes back to the second result's window the block, at t, of the specification's output. -/
theorem flushed9_eq (c : Dev nD) (t : Fin cfg0.N) :
    (dats m 0 c).flushed 9 t = ((cfg0.win 9).blk t).view.read (Elt Ideal)
      (Cert.Attn.conved (A0 m c) (A1 m c) (A2 m c) (A3 m c) (A4 m c) (A5 m c) (A6 m c) (A7 m c)) := by
  rw [Value.flushed9]
  obtain ⟨e0, e1, e2⟩ := idx9 t
  funext y
  show out0_9 (iblk m c 0 t) (iblk m c 1 t) (iblk m c 2 t) (iblk m c 3 t) (iblk m c 4 t) (iblk m c 5 t) (iblk m c 6 t) (iblk m c 7 t) y
    = Cert.Attn.conved (A0 m c) (A1 m c) (A2 m c) (A3 m c) (A4 m c) (A5 m c) (A6 m c) (A7 m c) (((cfg0.win 9).blk t).view.emb y)
  have hy0 : (y 0).val < 1 := (y 0).isLt
  have hy1 : (y 1).val < 512 := (y 1).isLt
  have hy2 : (y 2).val < 256 := (y 2).isLt
  have hi : ((cfg0.win 9).blk t).view.emb y = ix3 (grid0.coords t 0) (y 1) (pos (grid0.coords t 1) (y 2)) := by
    funext a
    apply Fin.ext
    match a with
    | ⟨0, _⟩ => show win0_9.index t (0 : Fin 3) * 1 + 1 * (y 0).val = (grid0.coords t 0).val; omega
    | ⟨1, _⟩ => show win0_9.index t (1 : Fin 3) * 512 + 1 * (y 1).val = (y 1).val; omega
    | ⟨2, _⟩ => show win0_9.index t (2 : Fin 3) * 256 + 1 * (y 2).val = 256 * (grid0.coords t 1).val + (y 2).val; omega
  rw [hi]
  refine (out9_at _ _ _ _ _ _ _ _ y).trans ?_
  exact row9 _ _ _ _ _ _ _ _ (A0 m c) (A1 m c) (A2 m c) (A3 m c) (A4 m c) (A5 m c) (A6 m c) (A7 m c)
    (grid0.coords t 0) (pos (grid0.coords t 1) (y 2)) (y 0) (y 1) (y 2)
    (fun h => blk0_apply m c t h (y 2)) (fun e h => blk4_apply m c t e h) (fun e => blk5_apply m c t e)
    (fun e => blk1_apply m c t (y 2) e) (fun s e => blk2_apply m c t s e) (fun s e => blk3_apply m c t s e)
    (fun e => blk6_apply m c t (y 1) e) (blk7_apply m c t (y 1))

/-! ## The blocks cover the arrays -/

/-- Every block index (b, g, 0) of the first result is some point's. -/
theorem onto8 : ∀ (q0 : Fin 8) (q1 : Fin 8), ∃ t : Fin cfg0.N, win0_8.index t = ![q0.val, q1.val, 0] :=
  (by decide +kernel : ∀ (q0 : Fin 8) (q1 : Fin 8), ∃ t : Fin grid0.N, win0_8.index t = ![q0.val, q1.val, 0])

/-- Every block index (b, 0, g) of the second result is some point's. -/
theorem onto9 : ∀ (q0 : Fin 8) (q1 : Fin 8), ∃ t : Fin cfg0.N, win0_9.index t = ![q0.val, 0, q1.val] :=
  (by decide +kernel : ∀ (q0 : Fin 8) (q1 : Fin 8), ∃ t : Fin grid0.N, win0_9.index t = ![q0.val, 0, q1.val])

/-- An index of the first result is in point t's block iff each coordinate is in the block's range on its axis. -/
theorem mem_blk8 (t : Fin cfg0.N) (i : S8x2048x2048.Idx) :
    i ∈ ((cfg0.win 8).blk t).view.set ↔ ∀ a : Fin 3, win0_8.index t a * S1x256x2048.size a ≤ (i a).val ∧ (i a).val < win0_8.index t a * S1x256x2048.size a + S1x256x2048.size a := by
  show i ∈ ((View.whole main_v2_0).slice (win0_8.rect t)).set ↔ _
  rw [View.set_slice_whole, Rect.mem_set_unit]
  exact Iff.rfl

/-- An index of the second result is in point t's block iff each coordinate is in the block's range on its axis. -/
theorem mem_blk9 (t : Fin cfg0.N) (i : S8x512x2048.Idx) :
    i ∈ ((cfg0.win 9).blk t).view.set ↔ ∀ a : Fin 3, win0_9.index t a * S1x512x256.size a ≤ (i a).val ∧ (i a).val < win0_9.index t a * S1x512x256.size a + S1x512x256.size a := by
  show i ∈ ((View.whole main_v2_1).slice (win0_9.rect t)).set ↔ _
  rw [View.set_slice_whole, Rect.mem_set_unit]
  exact Iff.rfl

/-- Row r of batch element b of the first result is in the block of the point (b, r / 256). -/
theorem cover8 (i : S8x2048x2048.Idx) : ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 2048 := (i 2).isLt
  obtain ⟨t, ht⟩ := onto8 ⟨(i 0).val, hi0⟩ ⟨(i 1).val / 256, by omega⟩
  have q0 : win0_8.index t (0 : Fin 3) = (i 0).val := congrFun ht 0
  have q1 : win0_8.index t (1 : Fin 3) = (i 1).val / 256 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 256 ≤ (i 1).val ∧ (i 1).val < win0_8.index t (1 : Fin 3) * 256 + 256; omega
  | ⟨2, _⟩ => show win0_8.index t (2 : Fin 3) * 2048 ≤ (i 2).val ∧ (i 2).val < win0_8.index t (2 : Fin 3) * 2048 + 2048; omega

/-- Column q of batch element b of the second result is in the block of the point (b, q / 256). -/
theorem cover9 (i : S8x512x2048.Idx) : ∃ t : Fin cfg0.N, (cfg0.win 9).flush t = true ∧ i ∈ ((cfg0.win 9).blk t).view.set := by
  have hi0 : (i 0).val < 8 := (i 0).isLt
  have hi1 : (i 1).val < 512 := (i 1).isLt
  have hi2 : (i 2).val < 2048 := (i 2).isLt
  obtain ⟨t, ht⟩ := onto9 ⟨(i 0).val, hi0⟩ ⟨(i 2).val / 256, by omega⟩
  have q0 : win0_9.index t (0 : Fin 3) = (i 0).val := congrFun ht 0
  have q1 : win0_9.index t (1 : Fin 3) = 0 := congrFun ht 1
  have q2 : win0_9.index t (2 : Fin 3) = (i 2).val / 256 := congrFun ht 2
  refine ⟨t, flush0_9 t, ?_⟩
  rw [mem_blk9]
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 512 ≤ (i 1).val ∧ (i 1).val < win0_9.index t (1 : Fin 3) * 512 + 512; omega
  | ⟨2, _⟩ => show win0_9.index t (2 : Fin 3) * 256 ≤ (i 2).val ∧ (i 2).val < win0_9.index t (2 : Fin 3) * 256 + 256; omega

/-! ## The arrays after the run -/

/-- The first result array ends holding the specification's attention weights of the argument arrays. -/
theorem final8 (c : Dev nD) :
    (dats m 0 c).arrAt 8 cfg0.N = Cert.Attn.attn (m ((c.tc : Thread nD τ).loc main_arg0)) (m ((c.tc : Thread nD τ).loc main_arg1))
      (m ((c.tc : Thread nD τ).loc main_arg2)) (m ((c.tc : Thread nD τ).loc main_arg4)) (m ((c.tc : Thread nD τ).loc main_arg5)) :=
  (dats m 0 c).arrAt_eq_of_cover 8 (Cert.Attn.attn (A0 m c) (A1 m c) (A2 m c) (A4 m c) (A5 m c))
    (fun t _ => flushed8_eq m c t) cover8

/-- The second result array ends holding the specification's output of the argument arrays. -/
theorem final9 (c : Dev nD) :
    (dats m 0 c).arrAt 9 cfg0.N = Cert.Attn.conved (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) :=
  (dats m 0 c).arrAt_eq_of_cover 9 (Cert.Attn.conved (A0 m c) (A1 m c) (A2 m c) (A3 m c) (A4 m c) (A5 m c) (A6 m c) (A7 m c))
    (fun t _ => flushed9_eq m c t) cover9

/-! ## The run, read -/

/-- The run: the two result arrays at the specification's two results of the argument arrays, the arguments unchanged. -/
theorem run : θ_run defs (onTc (τ := τ) (main (F := Ideal))) ⟨m, fun _ => 0, ρ⟩ fun r => ∀ c : Dev nD,
      r.2.mem ((c.tc : Thread nD τ).loc main_v2_0) = Cert.Attn.attn (m ((c.tc : Thread nD τ).loc main_arg0)) (m ((c.tc : Thread nD τ).loc main_arg1))
        (m ((c.tc : Thread nD τ).loc main_arg2)) (m ((c.tc : Thread nD τ).loc main_arg4)) (m ((c.tc : Thread nD τ).loc main_arg5))
      ∧ r.2.mem ((c.tc : Thread nD τ).loc main_v2_1) = Cert.Attn.conved (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (final8 m c), (h c).2.1.trans (final9 m c), (h c).2.2⟩)
    (Value.run_blocks m ρ)

end Cert.KernelIdeal.Whole

end
-- ==== Proof.lean ====
/-
  A decoder's attention over an encoder, computed by a tiled kernel and by plain array code: the two programs have equal
  results on the extended reals.

  Both programs compute, for every batch element b and decoder position t, the query ((dc[b,·,t] · W₁ᵀ) + b₁ + emb[b,t,·]) · c,
  its energies against the encoder positions, the attention weights (each row of energies shifted by its maximum,
  exponentiated, divided by the row's sum of exponentials), the context Σ_s a[b,t,s] · enx[b,s,·], and the output
  ((W₂ · context) + b₂ + dc[b,·,t]) · c. The first result is the [8, 2048, 2048] array of weights, the second the
  [8, 512, 2048] array of outputs.

  The kernel works on a grid of 8 × 8 points: point (b, g) holds batch element b and the block of 256 decoder positions
  256·g … 256·g + 255, and writes the rows of the weights and the columns of the output that belong to those positions.
  Its matrix products take operands narrowed to sixteen bits; a change of float format is the identity on the ideal
  values, so each product is the exact sum the reference's contraction is. The reference takes the row maximum once more
  against minus infinity, which changes nothing, since a maximum started from a value is at least that value. In one of
  the four products the two programs multiply the factors in opposite orders. Nothing else differs, so no input needs to
  be finite: sums and products of extended reals commute and associate as they stand.

  The modules: Spec.lean states the two results as functions of the eight argument arrays, one row at a time;
  KernelRow.lean and KernelStages.lean read the kernel's two stored blocks at an index as those row functions of the
  blocks the point holds; KernelValue.lean passes from the blocks to the whole arrays; RefValue.lean reads the reference's
  operations at an index as the same functions. Here the pieces are put side by side.
-/
import proofs.«141906_j8521215115924_1_alg».proof.Defs
import proofs.«141906_j8521215115924_1_alg».proof.Proof.Gen.Kernel
import proofs.«141906_j8521215115924_1_alg».proof.Proof.Gen.Kernel.Skeleton
import proofs.«141906_j8521215115924_1_alg».proof.Proof.Gen.Kernel.Launch
import proofs.«141906_j8521215115924_1_alg».proof.Proof.Gen.Kernel.Points
import proofs.«141906_j8521215115924_1_alg».proof.Proof.Gen.Kernel.Frame
import proofs.«141906_j8521215115924_1_alg».proof.Proof.Gen.KernelIdeal
import proofs.«141906_j8521215115924_1_alg».proof.Proof.Gen.KernelIdeal.Skeleton
import proofs.«141906_j8521215115924_1_alg».proof.Proof.Gen.KernelIdeal.Launch
import proofs.«141906_j8521215115924_1_alg».proof.Proof.Gen.KernelIdeal.Points
import proofs.«141906_j8521215115924_1_alg».proof.Proof.Gen.KernelIdeal.Frame
import proofs.«141906_j8521215115924_1_alg».proof.Proof.Gen.ReferenceIdeal
import proofs.«141906_j8521215115924_1_alg».proof.Proof.Gen.Pre_finite_inputs
import proofs.«141906_j8521215115924_1_alg».proof.Proof.Gen.KernelIdeal.Value
import proofs.«141906_j8521215115924_1_alg».proof.Proof.Gen.ReferenceIdeal.Run
import proofs.«141906_j8521215115924_1_alg».proof.Proof.Gen.ReferenceIdeal.Read
import proofs.«141906_j8521215115924_1_alg».proof.Proof.Spec
import proofs.«141906_j8521215115924_1_alg».proof.Proof.RefValue
import proofs.«141906_j8521215115924_1_alg».proof.Proof.KernelValue
import Idealize.ShloMosaic.Adequacy
import Idealize.ShloMosaic.Init

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with what it says of the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From arguments that agree, the kernel's two arrays end at the weights and the outputs of Spec.lean
    (KernelValue.lean), and the reference's two results are those same functions of its own arguments
    (RefValue.lean), which are the kernel's. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v19_eq _ _ _ _ _).trans ((Cert.ReferenceIdeal.RefValue.attn_eq _ _ _ _ _).trans ?_)
    rw [(hagree c).1, (hagree c).2.1, (hagree c).2.2.1, (hagree c).2.2.2.2.1, (hagree c).2.2.2.2.2.1]
  · refine (Cert.ReferenceIdeal.Read.val_main_v28_eq m' c).trans ((Cert.ReferenceIdeal.RefValue.conved_eq _ _ _ _ _ _ _ _).trans ?_)
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]

/-- The idealization rewrote no operation of the kernel, so there is nothing to preserve; the other four claims are the
    theorems above. -/
theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
